-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_49" .f32 0x3CA72F05#32 ((1 / 49 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x7x7x256 : Shape := ⟨4, ![8192, 7, 7, 256]⟩
abbrev S256x81 : Shape := ⟨2, ![256, 81]⟩
abbrev S81 : Shape := ⟨1, ![81]⟩
abbrev S256x4 : Shape := ⟨2, ![256, 4]⟩
abbrev S4 : Shape := ⟨1, ![4]⟩
abbrev S_ : Shape := ⟨0, ![]⟩

class Facts : Prop where
  bcast_S_S8192x7x7x256 : S_.BroadcastsInDim S8192x7x7x256 (![] : Fin 0 → Fin S8192x7x7x256.rank)
  reducesTo_S8192x7x7x256_S_d0_1_2_3 : S8192x7x7x256.ReducesTo [0, 1, 2, 3] S_
  h_S_ : 0 < S_.numel
  bcast_S_S256x81 : S_.BroadcastsInDim S256x81 (![] : Fin 0 → Fin S256x81.rank)
  reducesTo_S256x81_S_d0_1 : S256x81.ReducesTo [0, 1] S_
  bcast_S_S81 : S_.BroadcastsInDim S81 (![] : Fin 0 → Fin S81.rank)
  reducesTo_S81_S_d0 : S81.ReducesTo [0] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S4 .f32) (main_v13 : IVec S_ 1) (main_v16 : IVec S256x4 1) : IVec S_ 1 :=
  let main_c_5 : IVec S_ 1 := constantI S_ 1 1#1
  let main_v17 : IVec S_ 1 := (fun x v => Host.reduce IntOp.andi x v reducesTo_S256x4_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  main_v23

def fn {F : FTy → Type} [FloatOps F] (main_arg0 : FVec F S8192x7x7x256 .f32) (main_arg1 : FVec F S256x81 .f32) (main_arg2 : FVec F S81 .f32) (main_arg3 : FVec F S256x4 .f32) (main_arg4 : FVec F S4 .f32) : IVec S_ 1 :=
  let main_v0 : FVec F S8192x7x7x256 .f32 := Host.absf main_arg0
  let main_cst : FVec F S_ .f32 := constant S_ .f32 0x7F800000#32
  let main_v1 : FVec F S8192x7x7x256 .f32 := broadcastInDim S8192x7x7x256 ![] bcast_S_S8192x7x7x256 main_cst
  let main_v2 : IVec S8192x7x7x256 1 := cmpf .olt main_v0 main_v1
  let main_c : IVec S_ 1 := constantI S_ 1 1#1
  let main_v3 : IVec S_ 1 := (fun x v => Host.reduce IntOp.andi x v reducesTo_S8192x7x7x256_S_d0_1_2_3 h_S_) main_v2 main_c
  let main_v4 : FVec F S256x81 .f32 := Host.absf main_arg1
  let main_cst_0 : FVec F S_ .f32 := constant S_ .f32 0x7F800000#32
  let main_v5 : FVec F S256x81 .f32 := broadcastInDim S256x81 ![] bcast_S_S256x81 main_cst_0
  let main_v6 : IVec S256x81 1 := cmpf .olt main_v4 main_v5
  let main_c_1 : IVec S_ 1 := constantI S_ 1 1#1
  let main_v7 : IVec S_ 1 := (fun x v => Host.reduce IntOp.andi x v reducesTo_S256x81_S_d0_1 h_S_) main_v6 main_c_1
  let main_v8 : IVec S_ 1 := andi main_v3 main_v7
  let main_v9 : FVec F S81 .f32 := Host.absf main_arg2
  let main_cst_2 : FVec F S_ .f32 := constant S_ .f32 0x7F800000#32
  let main_v10 : FVec F S81 .f32 := broadcastInDim S81 ![] bcast_S_S81 main_cst_2
  let main_v11 : IVec S81 1 := cmpf .olt main_v9 main_v10
  let main_c_3 : IVec S_ 1 := constantI S_ 1 1#1
  let main_v12 : IVec S_ 1 := (fun x v => Host.reduce IntOp.andi x v reducesTo_S81_S_d0 h_S_) main_v11 main_c_3
  let main_v13 : IVec S_ 1 := andi main_v8 main_v12
  let main_v14 : FVec F S256x4 .f32 := Host.absf main_arg3
  let main_cst_4 : FVec F S_ .f32 := constant S_ .f32 0x7F800000#32
  let main_v15 : FVec F S256x4 .f32 := broadcastInDim S256x4 ![] bcast_S_S256x4 main_cst_4
  let main_v16 : IVec S256x4 1 := cmpf .olt main_v14 main_v15
  fn_part1 (F := F) main_arg4 main_v13 main_v16
-- ==== Kernel.lean ====
abbrev S8192x7x7x256 : Shape := ⟨4, ![8192, 7, 7, 256]⟩
abbrev S256x81 : Shape := ⟨2, ![256, 81]⟩
abbrev S81 : Shape := ⟨1, ![81]⟩
abbrev S256x4 : Shape := ⟨2, ![256, 4]⟩
abbrev S4 : Shape := ⟨1, ![4]⟩
abbrev S7x7x8192x256 : Shape := ⟨4, ![7, 7, 8192, 256]⟩
abbrev S81x256 : Shape := ⟨2, ![81, 256]⟩
abbrev S4x256 : Shape := ⟨2, ![4, 256]⟩
abbrev S1x81 : Shape := ⟨2, ![1, 81]⟩
abbrev S1x4 : Shape := ⟨2, ![1, 4]⟩
abbrev S81x8192 : Shape := ⟨2, ![81, 8192]⟩
abbrev S4x8192 : Shape := ⟨2, ![4, 8192]⟩
abbrev S7x7x256x256 : Shape := ⟨4, ![7, 7, 256, 256]⟩
abbrev S1x1x256x256 : Shape := ⟨4, ![1, 1, 256, 256]⟩
abbrev S256x256 : Shape := ⟨2, ![256, 256]⟩
abbrev S81x1 : Shape := ⟨2, ![81, 1]⟩
abbrev S256 : Shape := ⟨1, ![256]⟩
abbrev S1x256 : Shape := ⟨2, ![1, 256]⟩
abbrev S4x1 : Shape := ⟨2, ![4, 1]⟩
abbrev S8192x81 : Shape := ⟨2, ![8192, 81]⟩
abbrev S8192x4 : Shape := ⟨2, ![8192, 4]⟩

abbrev nBuf : Space → Nat
  | .hbm => 16
  | .vmem => 12
  | .smem => 0
  | _ => 0

abbrev bufTy : (tb : Table) → Fin (tcTables nBuf tb) → BufTy
  | .hbm, ⟨0, _⟩ => ⟨S8192x7x7x256, .f32⟩
  | .hbm, ⟨1, _⟩ => ⟨S256x81, .f32⟩
  | .hbm, ⟨2, _⟩ => ⟨S81, .f32⟩
  | .hbm, ⟨3, _⟩ => ⟨S256x4, .f32⟩
  | .hbm, ⟨4, _⟩ => ⟨S4, .f32⟩
  | .hbm, ⟨5, _⟩ => ⟨S7x7x8192x256, .f32⟩
  | .hbm, ⟨6, _⟩ => ⟨S81x256, .f32⟩
  | .hbm, ⟨7, _⟩ => ⟨S4x256, .f32⟩
  | .hbm, ⟨8, _⟩ => ⟨S1x81, .f32⟩
  | .hbm, ⟨9, _⟩ => ⟨S1x4, .f32⟩
  | .hbm, ⟨10, _⟩ => ⟨S81x8192, .f32⟩
  | .hbm, ⟨11, _⟩ => ⟨S81x8192, .f32⟩
  | .hbm, ⟨12, _⟩ => ⟨S4x8192, .f32⟩
  | .hbm, ⟨13, _⟩ => ⟨S8192x81, .f32⟩
  | .hbm, ⟨14, _⟩ => ⟨S8192x81, .f32⟩
  | .hbm, ⟨15, _⟩ => ⟨S8192x4, .f32⟩
  | .local _ .vmem, ⟨0, _⟩ => ⟨S7x7x256x256, .f32⟩
  | .local _ .vmem, ⟨1, _⟩ => ⟨S7x7x256x256, .f32⟩
  | .local _ .vmem, ⟨2, _⟩ => ⟨S81x256, .f32⟩
  | .local _ .vmem, ⟨3, _⟩ => ⟨S1x81, .f32⟩
  | .local _ .vmem, ⟨4, _⟩ => ⟨S4x256, .f32⟩
  | .local _ .vmem, ⟨5, _⟩ => ⟨S1x4, .f32⟩
  | .local _ .vmem, ⟨6, _⟩ => ⟨S81x256, .f32⟩
  | .local _ .vmem, ⟨7, _⟩ => ⟨S81x256, .f32⟩
  | .local _ .vmem, ⟨8, _⟩ => ⟨S81x256, .f32⟩
  | .local _ .vmem, ⟨9, _⟩ => ⟨S81x256, .f32⟩
  | .local _ .vmem, ⟨10, _⟩ => ⟨S4x256, .f32⟩
  | .local _ .vmem, ⟨11, _⟩ => ⟨S4x256, .f32⟩
  | _, _ => ⟨S8192x7x7x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S7x7x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S81x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x81 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S81x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S81x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S8192x7x7x256_S7x7x8192x256_1_2_0_3 : S8192x7x7x256.Transposes [1, 2, 0, 3] S7x7x8192x256
  transposes_S256x81_S81x256_1_0 : S256x81.Transposes [1, 0] S81x256
  transposes_S256x4_S4x256_1_0 : S256x4.Transposes [1, 0] S4x256
  shapeCasts_S81_S1x81 : S81.ShapeCasts S1x81
  shapeCasts_S4_S1x4 : S4.ShapeCasts S1x4
  inb_S7x7x256x256_S7x7x256x256_0_0_0_0 : ∀ a, (![0, 0, 0, 0] : Fin 4 → Nat) a + S7x7x256x256.size a ≤ S7x7x256x256.size a
  h_S7x7x256x256 : 0 < S7x7x256x256.numel
  shapeCasts_S7x7x256x256_S7x7x256x256 : S7x7x256x256.ShapeCasts S7x7x256x256
  slices_S7x7x256x256_o0_0_0_0_S1x1x256x256 : S7x7x256x256.Slices ![0, 0, 0, 0] S1x1x256x256
  shapeCasts_S1x1x256x256_S256x256 : S1x1x256x256.ShapeCasts S256x256
  slices_S7x7x256x256_o0_1_0_0_S1x1x256x256 : S7x7x256x256.Slices ![0, 1, 0, 0] S1x1x256x256
  slices_S7x7x256x256_o0_2_0_0_S1x1x256x256 : S7x7x256x256.Slices ![0, 2, 0, 0] S1x1x256x256
  slices_S7x7x256x256_o0_3_0_0_S1x1x256x256 : S7x7x256x256.Slices ![0, 3, 0, 0] S1x1x256x256
  slices_S7x7x256x256_o0_4_0_0_S1x1x256x256 : S7x7x256x256.Slices ![0, 4, 0, 0] S1x1x256x256
  slices_S7x7x256x256_o0_5_0_0_S1x1x256x256 : S7x7x256x256.Slices ![0, 5, 0, 0] S1x1x256x256
  slices_S7x7x256x256_o0_6_0_0_S1x1x256x256 : S7x7x256x256.Slices ![0, 6, 0, 0] S1x1x256x256
  slices_S7x7x256x256_o1_0_0_0_S1x1x256x256 : S7x7x256x256.Slices ![1, 0, 0, 0] S1x1x256x256
  slices_S7x7x256x256_o1_1_0_0_S1x1x256x256 : S7x7x256x256.Slices ![1, 1, 0, 0] S1x1x256x256
  slices_S7x7x256x256_o1_2_0_0_S1x1x256x256 : S7x7x256x256.Slices ![1, 2, 0, 0] S1x1x256x256
  slices_S7x7x256x256_o1_3_0_0_S1x1x256x256 : S7x7x256x256.Slices ![1, 3, 0, 0] S1x1x256x256
  slices_S7x7x256x256_o1_4_0_0_S1x1x256x256 : S7x7x256x256.Slices ![1, 4, 0, 0] S1x1x256x256
  slices_S7x7x256x256_o1_5_0_0_S1x1x256x256 : S7x7x256x256.Slices ![1, 5, 0, 0] S1x1x256x256
  slices_S7x7x256x256_o1_6_0_0_S1x1x256x256 : S7x7x256x256.Slices ![1, 6, 0, 0] S1x1x256x256
  slices_S7x7x256x256_o2_0_0_0_S1x1x256x256 : S7x7x256x256.Slices ![2, 0, 0, 0] S1x1x256x256
  slices_S7x7x256x256_o2_1_0_0_S1x1x256x256 : S7x7x256x256.Slices ![2, 1, 0, 0] S1x1x256x256
  slices_S7x7x256x256_o2_2_0_0_S1x1x256x256 : S7x7x256x256.Slices ![2, 2, 0, 0] S1x1x256x256
  slices_S7x7x256x256_o2_3_0_0_S1x1x256x256 : S7x7x256x256.Slices ![2, 3, 0, 0] S1x1x256x256
  slices_S7x7x256x256_o2_4_0_0_S1x1x256x256 : S7x7x256x256.Slices ![2, 4, 0, 0] S1x1x256x256
  slices_S7x7x256x256_o2_5_0_0_S1x1x256x256 : S7x7x256x256.Slices ![2, 5, 0, 0] S1x1x256x256
  slices_S7x7x256x256_o2_6_0_0_S1x1x256x256 : S7x7x256x256.Slices ![2, 6, 0, 0] S1x1x256x256
  slices_S7x7x256x256_o3_0_0_0_S1x1x256x256 : S7x7x256x256.Slices ![3, 0, 0, 0] S1x1x256x256
  slices_S7x7x256x256_o3_1_0_0_S1x1x256x256 : S7x7x256x256.Slices ![3, 1, 0, 0] S1x1x256x256
  slices_S7x7x256x256_o3_2_0_0_S1x1x256x256 : S7x7x256x256.Slices ![3, 2, 0, 0] S1x1x256x256
  slices_S7x7x256x256_o3_3_0_0_S1x1x256x256 : S7x7x256x256.Slices ![3, 3, 0, 0] S1x1x256x256
  slices_S7x7x256x256_o3_4_0_0_S1x1x256x256 : S7x7x256x256.Slices ![3, 4, 0, 0] S1x1x256x256
  slices_S7x7x256x256_o3_5_0_0_S1x1x256x256 : S7x7x256x256.Slices ![3, 5, 0, 0] S1x1x256x256
  slices_S7x7x256x256_o3_6_0_0_S1x1x256x256 : S7x7x256x256.Slices ![3, 6, 0, 0] S1x1x256x256
  slices_S7x7x256x256_o4_0_0_0_S1x1x256x256 : S7x7x256x256.Slices ![4, 0, 0, 0] S1x1x256x256
  slices_S7x7x256x256_o4_1_0_0_S1x1x256x256 : S7x7x256x256.Slices ![4, 1, 0, 0] S1x1x256x256
  slices_S7x7x256x256_o4_2_0_0_S1x1x256x256 : S7x7x256x256.Slices ![4, 2, 0, 0] S1x1x256x256
  slices_S7x7x256x256_o4_3_0_0_S1x1x256x256 : S7x7x256x256.Slices ![4, 3, 0, 0] S1x1x256x256
  slices_S7x7x256x256_o4_4_0_0_S1x1x256x256 : S7x7x256x256.Slices ![4, 4, 0, 0] S1x1x256x256
  slices_S7x7x256x256_o4_5_0_0_S1x1x256x256 : S7x7x256x256.Slices ![4, 5, 0, 0] S1x1x256x256
  slices_S7x7x256x256_o4_6_0_0_S1x1x256x256 : S7x7x256x256.Slices ![4, 6, 0, 0] S1x1x256x256
  slices_S7x7x256x256_o5_0_0_0_S1x1x256x256 : S7x7x256x256.Slices ![5, 0, 0, 0] S1x1x256x256
  slices_S7x7x256x256_o5_1_0_0_S1x1x256x256 : S7x7x256x256.Slices ![5, 1, 0, 0] S1x1x256x256
  slices_S7x7x256x256_o5_2_0_0_S1x1x256x256 : S7x7x256x256.Slices ![5, 2, 0, 0] S1x1x256x256
  slices_S7x7x256x256_o5_3_0_0_S1x1x256x256 : S7x7x256x256.Slices ![5, 3, 0, 0] S1x1x256x256
  slices_S7x7x256x256_o5_4_0_0_S1x1x256x256 : S7x7x256x256.Slices ![5, 4, 0, 0] S1x1x256x256
  slices_S7x7x256x256_o5_5_0_0_S1x1x256x256 : S7x7x256x256.Slices ![5, 5, 0, 0] S1x1x256x256
  slices_S7x7x256x256_o5_6_0_0_S1x1x256x256 : S7x7x256x256.Slices ![5, 6, 0, 0] S1x1x256x256
  slices_S7x7x256x256_o6_0_0_0_S1x1x256x256 : S7x7x256x256.Slices ![6, 0, 0, 0] S1x1x256x256
  slices_S7x7x256x256_o6_1_0_0_S1x1x256x256 : S7x7x256x256.Slices ![6, 1, 0, 0] S1x1x256x256
  slices_S7x7x256x256_o6_2_0_0_S1x1x256x256 : S7x7x256x256.Slices ![6, 2, 0, 0] S1x1x256x256
  slices_S7x7x256x256_o6_3_0_0_S1x1x256x256 : S7x7x256x256.Slices ![6, 3, 0, 0] S1x1x256x256
  slices_S7x7x256x256_o6_4_0_0_S1x1x256x256 : S7x7x256x256.Slices ![6, 4, 0, 0] S1x1x256x256
  slices_S7x7x256x256_o6_5_0_0_S1x1x256x256 : S7x7x256x256.Slices ![6, 5, 0, 0] S1x1x256x256
  slices_S7x7x256x256_o6_6_0_0_S1x1x256x256 : S7x7x256x256.Slices ![6, 6, 0, 0] S1x1x256x256
  transposes_S256x256_p1_0_S256x256 : S256x256.Transposes [1, 0] S256x256
  inb_S81x256_S81x256_0_0 : ∀ a, (![0, 0] : Fin 2 → Nat) a + S81x256.size a ≤ S81x256.size a
  h_S81x256 : 0 < S81x256.numel
  shapeCasts_S81x256_S81x256 : S81x256.ShapeCasts S81x256
  inb_S1x81_S1x81_0_0 : ∀ a, (![0, 0] : Fin 2 → Nat) a + S1x81.size a ≤ S1x81.size a
  h_S1x81 : 0 < S1x81.numel
  shapeCasts_S1x81_S1x81 : S1x81.ShapeCasts S1x81
  transposes_S1x81_p1_0_S81x1 : S1x81.Transposes [1, 0] S81x1
  broadcasts_S81x1_S81x256 : S81x1.Broadcasts S81x256
  reduces_S81x256_S256 : S81x256.Reduces [0] S256
  shapeCasts_S256_S1x256 : S256.ShapeCasts S1x256
  broadcasts_S1x256_S81x256 : S1x256.Broadcasts S81x256
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S1x4_S1x4_0_0 : ∀ a, (![0, 0] : Fin 2 → Nat) a + S1x4.size a ≤ S1x4.size a
  h_S1x4 : 0 < S1x4.numel
  shapeCasts_S1x4_S1x4 : S1x4.ShapeCasts S1x4
  transposes_S1x4_p1_0_S4x1 : S1x4.Transposes [1, 0] S4x1
  broadcasts_S4x1_S4x256 : S4x1.Broadcasts S4x256
  transposes_S81x8192_S8192x81_1_0 : S81x8192.Transposes [1, 0] S8192x81
  transposes_S4x8192_S8192x4_1_0 : S4x8192.Transposes [1, 0] S8192x4
  dot_S81x256_S256x256_S81x256_1_0_0_1_n_n_wf : DotDims.WF S81x256 S256x256 S81x256 [1] [0] [0] [1] [] []
  dot_S4x256_S256x256_S4x256_1_0_0_1_n_n_wf : DotDims.WF S4x256 S256x256 S4x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x7x256x256.size a ≤ S7x7x8192x256.size a
  hwx0_0 : ∀ i : grid0.Coords, EltTy.bits .f32 = 32 ∨ (Rect.block (s := S7x7x8192x256) S7x7x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S81x256.size a ≤ S81x256.size a
  hwx0_1 : ∀ i : grid0.Coords, EltTy.bits .f32 = 32 ∨ (Rect.block (s := S81x256) S81x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x81.size a ≤ S1x81.size a
  hwx0_2 : ∀ i : grid0.Coords, EltTy.bits .f32 = 32 ∨ (Rect.block (s := S1x81) S1x81.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x256.size a ≤ S4x256.size a
  hwx0_3 : ∀ i : grid0.Coords, EltTy.bits .f32 = 32 ∨ (Rect.block (s := S4x256) S4x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4.size a ≤ S1x4.size a
  hwx0_4 : ∀ i : grid0.Coords, EltTy.bits .f32 = 32 ∨ (Rect.block (s := S1x4) S1x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S81x256.size a ≤ S81x8192.size a
  hwx0_5 : ∀ i : grid0.Coords, EltTy.bits .f32 = 32 ∨ (Rect.block (s := S81x8192) S81x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S81x256.size a ≤ S81x8192.size a
  hwx0_6 : ∀ i : grid0.Coords, EltTy.bits .f32 = 32 ∨ (Rect.block (s := S81x8192) S81x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x256.size a ≤ S4x8192.size a
  hwx0_7 : ∀ i : grid0.Coords, EltTy.bits .f32 = 32 ∨ (Rect.block (s := S4x8192) S4x256.size (cc0_transform_7 i) (hinb0_7 i)).WholeWords (EltTy.packing .f32)

variable [Facts₀]

def dot_S81x256_S256x256_S81x256_1_0_0_1_n_n : DotDims S81x256 S256x256 S81x256 where
  lhsContracting := [1]
  rhsContracting := [0]
  lhsNonContracting := [0]
  rhsNonContracting := [1]
  lhsBatch := []
  rhsBatch := []
  wf := dot_S81x256_S256x256_S81x256_1_0_0_1_n_n_wf
def dot_S4x256_S256x256_S4x256_1_0_0_1_n_n : DotDims S4x256 S256x256 S4x256 where
  lhsContracting := [1]
  rhsContracting := [0]
  lhsNonContracting := [0]
  rhsNonContracting := [1]
  lhsBatch := []
  rhsBatch := []
  wf := dot_S4x256_S256x256_S4x256_1_0_0_1_n_n_wf

abbrev win0_0 : Pipeline.Window sig grid0 :=
  Pipeline.Window.ofSpec (Memref.whole main_v0) S7x7x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S81x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x81.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S81x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S81x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_2) S4x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x7x7x256 : Shape := ⟨4, ![8192, 7, 7, 256]⟩
abbrev S256x81 : Shape := ⟨2, ![256, 81]⟩
abbrev S81 : Shape := ⟨1, ![81]⟩
abbrev S256x4 : Shape := ⟨2, ![256, 4]⟩
abbrev S4 : Shape := ⟨1, ![4]⟩
abbrev S_ : Shape := ⟨0, ![]⟩
abbrev S8192x256 : Shape := ⟨2, ![8192, 256]⟩
abbrev S8192x81 : Shape := ⟨2, ![8192, 81]⟩
abbrev S1x81 : Shape := ⟨2, ![1, 81]⟩
abbrev S8192 : Shape := ⟨1, ![8192]⟩
abbrev S8192x1 : Shape := ⟨2, ![8192, 1]⟩
abbrev S8192x4 : Shape := ⟨2, ![8192, 4]⟩
abbrev S1x4 : Shape := ⟨2, ![1, 4]⟩

abbrev nBuf : Space → Nat
  | .hbm => 32
  | .vmem => 0
  | .smem => 0
  | _ => 0

abbrev bufTy : (tb : Table) → Fin (tcTables nBuf tb) → BufTy
  | .hbm, ⟨0, _⟩ => ⟨S8192x7x7x256, .f32⟩
  | .hbm, ⟨1, _⟩ => ⟨S256x81, .f32⟩
  | .hbm, ⟨2, _⟩ => ⟨S81, .f32⟩
  | .hbm, ⟨3, _⟩ => ⟨S256x4, .f32⟩
  | .hbm, ⟨4, _⟩ => ⟨S4, .f32⟩
  | .hbm, ⟨5, _⟩ => ⟨S_, .f32⟩
  | .hbm, ⟨6, _⟩ => ⟨S8192x256, .f32⟩
  | .hbm, ⟨7, _⟩ => ⟨S_, .f32⟩
  | .hbm, ⟨8, _⟩ => ⟨S8192x256, .f32⟩
  | .hbm, ⟨9, _⟩ => ⟨S8192x256, .f32⟩
  | .hbm, ⟨10, _⟩ => ⟨S8192x81, .f32⟩
  | .hbm, ⟨11, _⟩ => ⟨S1x81, .f32⟩
  | .hbm, ⟨12, _⟩ => ⟨S8192x81, .f32⟩
  | .hbm, ⟨13, _⟩ => ⟨S8192x81, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S8192x81, .f32⟩
  | .hbm, ⟨21, _⟩ => ⟨S8192x81, .f32⟩
  | .hbm, ⟨22, _⟩ => ⟨S8192x81, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S8192x81, .f32⟩
  | .hbm, ⟨27, _⟩ => ⟨S8192x81, .f32⟩
  | .hbm, ⟨28, _⟩ => ⟨S8192x4, .f32⟩
  | .hbm, ⟨29, _⟩ => ⟨S1x4, .f32⟩
  | .hbm, ⟨30, _⟩ => ⟨S8192x4, .f32⟩
  | .hbm, ⟨31, _⟩ => ⟨S8192x4, .f32⟩
  | _, _ => ⟨S8192x7x7x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  reducesTo_S8192x7x7x256_S8192x256_d1_2 : S8192x7x7x256.ReducesTo [1, 2] S8192x256
  h_S_ : 0 < S_.numel
  bcast_S_S8192x256 : S_.BroadcastsInDim S8192x256 (![] : Fin 0 → Fin S8192x256.rank)
  bcast_S81_S1x81_1 : S81.BroadcastsInDim S1x81 (![1] : Fin 1 → Fin S1x81.rank)
  bcast_S1x81_S8192x81_0_1 : S1x81.BroadcastsInDim S8192x81 (![0, 1] : Fin 2 → Fin S8192x81.rank)
  reducesTo_S8192x81_S8192_d1 : S8192x81.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x81_0_1 : S8192x1.BroadcastsInDim S8192x81 (![0, 1] : Fin 2 → Fin S8192x81.rank)
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  dot_S8192x256_S256x81_S8192x81_1_0_0_1_n_n_wf : DotDims.WF S8192x256 S256x81 S8192x81 [1] [0] [0] [1] [] []
  dot_S8192x256_S256x4_S8192x4_1_0_0_1_n_n_wf : DotDims.WF S8192x256 S256x4 S8192x4 [1] [0] [0] [1] [] []

variable [Facts₀]

def dot_S8192x256_S256x81_S8192x81_1_0_0_1_n_n : DotDims S8192x256 S256x81 S8192x81 where
  lhsContracting := [1]
  rhsContracting := [0]
  lhsNonContracting := [0]
  rhsNonContracting := [1]
  lhsBatch := []
  rhsBatch := []
  wf := dot_S8192x256_S256x81_S8192x81_1_0_0_1_n_n_wf
def dot_S8192x256_S256x4_S8192x4_1_0_0_1_n_n : DotDims S8192x256 S256x4 S8192x4 where
  lhsContracting := [1]
  rhsContracting := [0]
  lhsNonContracting := [0]
  rhsNonContracting := [1]
  lhsBatch := []
  rhsBatch := []
  wf := dot_S8192x256_S256x4_S8192x4_1_0_0_1_n_n_wf

class Facts : Prop extends Facts₀ where

variable [Facts]
-- ==== Proof.PoolTree.lean ====
/-
  The spatial pooling tree. A 7 × 7 window of values, listed row by row (a₀₀, a₀₁, …, a₆₆), is summed by
  repeated pairing of neighbours: 49 values give 24 pair sums and the last value carried, 25 values give 12
  pair sums and the carry, then 6 and the carry, then 3 and the carry, then two sums, then one. Addition in
  a commutative monoid is associative and commutative, so the tree's value is the double sum over the window.
-/
import Mathlib.Algebra.BigOperators.Fin
import Mathlib.Tactic.Abel

namespace Cert.RoiHead

/-- The pairing tree over a 7 × 7 family, level by level. -/
def pairTree {M : Type*} [Add M] (a : Fin 7 → Fin 7 → M) : M :=
  -- 49 → 24 pair sums, `a 6 6` carried
  let b0 := a 0 0 + a 0 1; let b1 := a 0 2 + a 0 3; let b2 := a 0 4 + a 0 5; let b3 := a 0 6 + a 1 0
  let b4 := a 1 1 + a 1 2; let b5 := a 1 3 + a 1 4; let b6 := a 1 5 + a 1 6; let b7 := a 2 0 + a 2 1
  let b8 := a 2 2 + a 2 3; let b9 := a 2 4 + a 2 5; let b10 := a 2 6 + a 3 0; let b11 := a 3 1 + a 3 2
  let b12 := a 3 3 + a 3 4; let b13 := a 3 5 + a 3 6; let b14 := a 4 0 + a 4 1; let b15 := a 4 2 + a 4 3
  let b16 := a 4 4 + a 4 5; let b17 := a 4 6 + a 5 0; let b18 := a 5 1 + a 5 2; let b19 := a 5 3 + a 5 4
  let b20 := a 5 5 + a 5 6; let b21 := a 6 0 + a 6 1; let b22 := a 6 2 + a 6 3; let b23 := a 6 4 + a 6 5
  -- 24 → 12
  let c0 := b0 + b1; let c1 := b2 + b3; let c2 := b4 + b5; let c3 := b6 + b7; let c4 := b8 + b9; let c5 := b10 + b11
  let c6 := b12 + b13; let c7 := b14 + b15; let c8 := b16 + b17; let c9 := b18 + b19; let c10 := b20 + b21; let c11 := b22 + b23
  -- 12 → 6
  let d0 := c0 + c1; let d1 := c2 + c3; let d2 := c4 + c5; let d3 := c6 + c7; let d4 := c8 + c9; let d5 := c10 + c11
  -- 6 → 3
  let e0 := d0 + d1; let e1 := d2 + d3; let e2 := d4 + d5
  -- 3 and the carried value → 2 → 1
  (e0 + e1) + (e2 + a 6 6)

/-- The pairing tree is the sum over the window. -/
theorem pairTree_eq_sum {M : Type*} [AddCommMonoid M] (a : Fin 7 → Fin 7 → M) :
    pairTree a = ∑ p : Fin 7, ∑ q : Fin 7, a p q := by
  simp only [pairTree, Fin.sum_univ_seven]
  abel

end Cert.RoiHead
-- ==== Proof.Spec.lean ====
/-
  What the box head computes, as functions of its five arguments over the extended reals.
  For ROI `n` and channel `c` the 7 × 7 spatial window is summed (`pooled`) and scaled by 1/49 (`mean`: global
  average pooling). A dense layer with weights `W` (256 × K) and bias `b` gives `dense n k = Σ_c mean n c · W c k + b k`;
  the class logits are the dense layer at K = 81, the box deltas the dense layer at K = 4, and the class
  probabilities the softmax of a ROI's 81 logits, taken with the row's maximum subtracted first:
  `exp (ℓ k − max ℓ) / Σ_j exp (ℓ j − max ℓ)`.
  Also here: the two algebraic facts that let differently arranged programs meet these functions — division
  by 49 is the product with 1/49 on every extended real, and a product may be taken in either order.
-/
import Idealize.ShloMosaic.PureOps.Ideal
import Idealize.ShloMosaic.Lib.ValueIdx
import proofs.«179187_g2559800508426_cont_9to1_580_17_alg».proof.Proof.PoolTree

noncomputable section

namespace Cert.RoiHead

open Idealize.ShloMosaic Idealize.ShloMosaic.ValueIdx

/-- The window sum of ROI `n` at channel `c`. -/
def pooled (X : (⟨4, ![8192, 7, 7, 256]⟩ : Shape).Idx → EReal) (n : Fin 8192) (c : Fin 256) : EReal :=
  ∑ p : Fin 7, ∑ q : Fin 7, X (ix4 n p q c)

/-- The window mean: the sum times the rational 1/49. -/
def mean (X : (⟨4, ![8192, 7, 7, 256]⟩ : Shape).Idx → EReal) (n : Fin 8192) (c : Fin 256) : EReal :=
  pooled X n c * ((1 / 49 : ℝ) : EReal)

/-- A dense layer on the pooled features: `Σ_c mean n c · W c k + b k`. -/
def dense {K : ℕ} (X : (⟨4, ![8192, 7, 7, 256]⟩ : Shape).Idx → EReal) (W : (⟨2, ![256, K]⟩ : Shape).Idx → EReal)
    (b : (⟨1, ![K]⟩ : Shape).Idx → EReal) (n : Fin 8192) (k : Fin K) : EReal :=
  (∑ c : Fin 256, mean X n c * W (ix2 c k)) + b (ix1 k)

/-- The largest of finitely many extended reals (`⊥` of none). -/
def colMax {K : ℕ} (L : Fin K → EReal) : EReal := (Finset.univ : Finset (Fin K)).fold max ⊥ L

/-- Softmax with the maximum subtracted. -/
def softmax {K : ℕ} (L : Fin K → EReal) (k : Fin K) : EReal :=
  Ideal.div (Ideal.exp (L k - colMax L)) (∑ j : Fin K, Ideal.exp (L j - colMax L))

/-- The three results, as arrays indexed (ROI, class) and (ROI, box coordinate). -/
def logits (X : (⟨4, ![8192, 7, 7, 256]⟩ : Shape).Idx → EReal) (Wl : (⟨2, ![256, 81]⟩ : Shape).Idx → EReal)
    (bl : (⟨1, ![81]⟩ : Shape).Idx → EReal) : (⟨2, ![8192, 81]⟩ : Shape).Idx → EReal :=
  fun i => dense X Wl bl (i 0) (i 1)

def probs (X : (⟨4, ![8192, 7, 7, 256]⟩ : Shape).Idx → EReal) (Wl : (⟨2, ![256, 81]⟩ : Shape).Idx → EReal)
    (bl : (⟨1, ![81]⟩ : Shape).Idx → EReal) : (⟨2, ![8192, 81]⟩ : Shape).Idx → EReal :=
  fun i => softmax (fun k : Fin 81 => dense X Wl bl (i 0) k) (i 1)

def deltas (X : (⟨4, ![8192, 7, 7, 256]⟩ : Shape).Idx → EReal) (Wd : (⟨2, ![256, 4]⟩ : Shape).Idx → EReal)
    (bd : (⟨1, ![4]⟩ : Shape).Idx → EReal) : (⟨2, ![8192, 4]⟩ : Shape).Idx → EReal :=
  fun i => dense X Wd bd (i 0) (i 1)

/-- The window summed by the pairing tree is the window sum. -/
theorem pairTree_window (X : (⟨4, ![8192, 7, 7, 256]⟩ : Shape).Idx → EReal) (n : Fin 8192) (c : Fin 256) :
    pairTree (fun p q => X (ix4 n p q c)) = pooled X n c :=
  pairTree_eq_sum _

/-- A quotient by 49 (a sum started from zero, divided) is the mean. -/
theorem div49_eq_mean (X : (⟨4, ![8192, 7, 7, 256]⟩ : Shape).Idx → EReal) (n : Fin 8192) (c : Fin 256) :
    Ideal.div (0 + pooled X n c) ((49 : ℝ) : EReal) = mean X n c := by
  rw [zero_add, Ideal.div_coe (by norm_num : (49 : ℝ) ≠ 0)]
  rfl

/-- A dense layer whose products are taken weight first. -/
theorem dense_comm {K : ℕ} (X : (⟨4, ![8192, 7, 7, 256]⟩ : Shape).Idx → EReal) (W : (⟨2, ![256, K]⟩ : Shape).Idx → EReal)
    (b : (⟨1, ![K]⟩ : Shape).Idx → EReal) (n : Fin 8192) (k : Fin K) :
    (∑ c : Fin 256, W (ix2 c k) * mean X n c) + b (ix1 k) = dense X W b n k := by
  unfold dense
  exact congrArg (· + b (ix1 k)) (Finset.sum_congr rfl fun c _ => mul_comm _ _)

/-- The maximum from `⊥`, once more against `⊥`, is itself. -/
theorem max_bot_colMax {K : ℕ} (L : Fin K → EReal) : max ⊥ (colMax L) = colMax L := max_eq_right bot_le

end Cert.RoiHead

end
-- ==== Proof.ColumnOps.lean ====
/-
  Vector operations of a classes-major block read at one entry. The block is K × N (K classes down the
  sublanes, N ROIs along the lanes):
  * a bias column [K, 1] spread along the lanes reads, at (k, r), the column's entry k;
  * a 7 × 7 × N × C block cut at spatial position (p, q) and cast to N × C reads, at (r, c), the block at (p, q, r, c);
  * a matrix product into a zero accumulator reads, at (k, r), the sum over the contracted channel of the products;
  * the maximum and the sum down a column, put back on a leading unit axis and spread over the K rows, read at (k, r)
    the column's maximum and sum — so the body's `exp (P − max) / Σ exp (P − max)` is the softmax of column r.
-/
import Idealize.ShloMosaic.PureOps.Ideal.Laws
import Idealize.ShloMosaic.Lib.Pipeline.Value
import Idealize.ShloMosaic.Lib.ValueIdx
import Idealize.ShloMosaic.Lib.ValueLayout
import proofs.«179187_g2559800508426_cont_9to1_580_17_alg».proof.Proof.Spec

noncomputable section

namespace Cert.RoiHead

open Idealize.ShloMosaic Idealize.ShloMosaic.ValueIdx

/-- A column [a, 1] broadcast to [a, b] reads, at (i, j), the column at i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The spatial position (p, q) of a [7, 7, n, c] block, as an [n, c] matrix, reads the block at (p, q, r, c). -/
theorem window_slice_apply {α : Type} {n c : ℕ} (v : (⟨4, ![7, 7, n, c]⟩ : Shape).Idx → α) (p q : Fin 7)
    (h1 : (⟨4, ![7, 7, n, c]⟩ : Shape).Slices ![p.val, q.val, 0, 0] ⟨4, ![1, 1, n, c]⟩)
    (h2 : (⟨4, ![1, 1, n, c]⟩ : Shape).ShapeCasts ⟨2, ![n, c]⟩) (r : Fin n) (s : Fin c) :
    shapeCast ⟨2, ![n, c]⟩ (extractStridedSlice ⟨4, ![1, 1, n, c]⟩ ![p.val, q.val, 0, 0] v h1) h2 (ix2 r s)
      = v (ix4 p q r s) := by
  refine (shapeCast_apply _ h2 (ix2 r s) (ix4 (0 : Fin 1) (0 : Fin 1) r s) ?_).trans ?_
  · rw [Shape.rowMajor_val_four, Shape.rowMajor_val_two]
    show ((0 * 1 + 0) * n + r.val) * c + s.val = r.val * c + s.val
    simp only [Nat.zero_mul, Nat.zero_add]
  · refine extractStridedSlice_apply _ v h1 _ (ix4 p q r s) fun ax => ?_
    match ax with
    | ⟨0, _⟩ => show p.val = p.val + 0; rfl
    | ⟨1, _⟩ => show q.val = q.val + 0; rfl
    | ⟨2, _⟩ => show r.val = 0 + r.val; exact (Nat.zero_add _).symm
    | ⟨3, _⟩ => show s.val = 0 + s.val; exact (Nat.zero_add _).symm

/-- The dimension numbers of a plain [M, 256] × [256, 256] product: rows by the contracted channel, channel by columns. -/
abbrev plainDot {M : ℕ}
    (wf : DotDims.WF (⟨2, ![M, 256]⟩ : Shape) ⟨2, ![256, 256]⟩ ⟨2, ![M, 256]⟩ [1] [0] [0] [1] [] []) :
    DotDims (⟨2, ![M, 256]⟩ : Shape) ⟨2, ![256, 256]⟩ ⟨2, ![M, 256]⟩ :=
  ⟨[1], [0], [0], [1], [], [], wf⟩

/-- A [M, 256] × [256, 256] matrix product into the zero accumulator, at (k, r): the sum over the channel. -/
theorem matmul_zero_ix2 {M : ℕ}
    (wf : DotDims.WF (⟨2, ![M, 256]⟩ : Shape) ⟨2, ![256, 256]⟩ ⟨2, ![M, 256]⟩ [1] [0] [0] [1] [] [])
    (l : FVec Ideal ⟨2, ![M, 256]⟩ .f32) (r : FVec Ideal ⟨2, ![256, 256]⟩ .f32) (k : Fin M) (n : Fin 256) :
    matmul (F := Ideal) (plainDot wf)
      none l r (constant ⟨2, ![M, 256]⟩ .f32 0x00000000#32) (ix2 k n)
      = ∑ c : Fin 256, l (ix2 k c) * r (ix2 c n) := by
  simp only [matmul]
  rw [Ideal.matmul_constant_zero_apply, ← Equiv.sum_comp (contrEquiv1 _ 256 rfl rfl).symm]
  refine Finset.sum_congr rfl fun c _ => ?_
  have hc := contrEquiv1_symm_val (plainDot wf) 256 rfl rfl c
  congr 1
  · refine congrArg l (funext fun a => Fin.ext ?_)
    match a with
    | ⟨0, h0⟩ =>
      have hb : (⟨0, h0⟩ : Fin (⟨2, ![M, 256]⟩ : Shape).rank) ∉ (plainDot wf).lhsBatch := List.not_mem_nil
      have hn : (⟨0, h0⟩ : Fin (⟨2, ![M, 256]⟩ : Shape).rank) ∈ (plainDot wf).lhsNonContracting := List.mem_singleton.mpr rfl
      unfold DotDims.lhsIdx
      rw [dif_neg hb, dif_pos hn]
      rfl
    | ⟨1, _⟩ => exact (DotDims.lhsIdx_val_of_single _ rfl _ _).trans hc
  · refine congrArg r (funext fun a => Fin.ext ?_)
    match a with
    | ⟨0, _⟩ => exact (DotDims.rhsIdx_val_of_single _ rfl _ _).trans hc
    | ⟨1, h1⟩ =>
      have hb : (⟨1, h1⟩ : Fin (⟨2, ![256, 256]⟩ : Shape).rank) ∉ (plainDot wf).rhsBatch := List.not_mem_nil
      have hn : (⟨1, h1⟩ : Fin (⟨2, ![256, 256]⟩ : Shape).rank) ∈ (plainDot wf).rhsNonContracting := List.mem_singleton.mpr rfl
      unfold DotDims.rhsIdx
      rw [dif_neg hb, dif_pos hn]
      rfl

/-- A dense layer in classes-major form, at (k, r): weights [M, 256] times a channel-major feature block [256, 256],
    plus the bias row [1, M] turned into a column and spread along the lanes. -/
theorem dense_entry {M : ℕ}
    (wf : DotDims.WF (⟨2, ![M, 256]⟩ : Shape) ⟨2, ![256, 256]⟩ ⟨2, ![M, 256]⟩ [1] [0] [0] [1] [] [])
    (w : FVec Ideal ⟨2, ![M, 256]⟩ .f32) (T : FVec Ideal ⟨2, ![256, 256]⟩ .f32) (b : FVec Ideal ⟨2, ![1, M]⟩ .f32)
    (h1 : (⟨2, ![M, 256]⟩ : Shape).ShapeCasts ⟨2, ![M, 256]⟩) (h2 : (⟨2, ![1, M]⟩ : Shape).ShapeCasts ⟨2, ![1, M]⟩)
    (h3 : (⟨2, ![1, M]⟩ : Shape).Transposes [1, 0] ⟨2, ![M, 1]⟩) (h4 : (⟨2, ![M, 1]⟩ : Shape).Broadcasts ⟨2, ![M, 256]⟩)
    (k : Fin M) (r : Fin 256) :
    addf (matmul (F := Ideal) (plainDot wf) none (shapeCast ⟨2, ![M, 256]⟩ w h1) T (constant ⟨2, ![M, 256]⟩ .f32 0x00000000#32))
        (broadcastTo ⟨2, ![M, 256]⟩ (transpose ⟨2, ![M, 1]⟩ [1, 0] (shapeCast ⟨2, ![1, M]⟩ b h2) h3) h4) (ix2 k r)
      = (∑ c : Fin 256, w (ix2 k c) * T (ix2 c r)) + b (ix2 (0 : Fin 1) k) := by
  rw [addf_apply, matmul_zero_ix2, broadcastTo_a1_ab_apply, transpose_ix2_apply, shapeCast_self, shapeCast_self]

/-- The index of a [K, N] block whose row coordinate was dropped, with it put back. -/
theorem lift_row {K N : ℕ} (hr : (⟨2, ![K, N]⟩ : Shape).Reduces [0] ⟨1, ![N]⟩) (r : Fin N) (k : Fin K) :
    hr.lift (ix1 r) k = ix2 k r := by
  funext a
  apply Fin.ext
  show hr.liftVal (ix1 r) k.val a = (ix2 k r a).val
  unfold Shape.Reduces.liftVal
  match a with
  | ⟨0, _⟩ => rfl
  | ⟨1, _⟩ => rfl

/-- The body's softmax down a column: with `E = exp (P − colmax P)`, `E / colsum E` at (k, r) is the softmax of column r. -/
theorem softmax_column {K N : ℕ} (P : FVec Ideal ⟨2, ![K, N]⟩ .f32)
    (hr : (⟨2, ![K, N]⟩ : Shape).Reduces [0] ⟨1, ![N]⟩) (hφ : FKind.Formats .f32)
    (hmax : (0xFF800000#32 : BitVec 32) = FKind.maximumf.neutral .f32 hφ)
    (hadd : (0x00000000#32 : BitVec 32) = FKind.add.neutral .f32 hφ)
    (hc : (⟨1, ![N]⟩ : Shape).ShapeCasts ⟨2, ![1, N]⟩) (hb : (⟨2, ![1, N]⟩ : Shape).Broadcasts ⟨2, ![K, N]⟩)
    (k : Fin K) (r : Fin N) :
    divf (exp (subf P (broadcastTo ⟨2, ![K, N]⟩ (shapeCast ⟨2, ![1, N]⟩
          (multiReduction .maximumf [0] ⟨1, ![N]⟩ P 0xFF800000#32 hr hφ hmax) hc) hb)))
        (broadcastTo ⟨2, ![K, N]⟩ (shapeCast ⟨2, ![1, N]⟩
          (multiReduction .add [0] ⟨1, ![N]⟩ (exp (subf P (broadcastTo ⟨2, ![K, N]⟩ (shapeCast ⟨2, ![1, N]⟩
            (multiReduction .maximumf [0] ⟨1, ![N]⟩ P 0xFF800000#32 hr hφ hmax) hc) hb))) 0x00000000#32 hr hφ hadd) hc) hb)
        (ix2 k r)
      = softmax (fun j : Fin K => P (ix2 j r)) k := by
  have hmx : ∀ j : Fin K, broadcastTo ⟨2, ![K, N]⟩ (shapeCast ⟨2, ![1, N]⟩
        (multiReduction .maximumf [0] ⟨1, ![N]⟩ P 0xFF800000#32 hr hφ hmax) hc) hb (ix2 j r)
      = colMax (fun j : Fin K => P (ix2 j r)) := fun j => by
    rw [broadcastTo_1b_ab_apply, shapeCast_a_1a_apply, Ideal.multiReduction_maximumf_single]
    unfold colMax
    have hbot : (FloatOps.ofBits (F := Ideal) .f32 (0xFF800000#32 : BitVec 32)) = (⊥ : EReal) := by
      show Ideal.ofBits .f32 0xFF800000#32 = ⊥
      simp [Ideal.ofBits, Ideal.ieee]
    rw [hbot]
    exact congrArg (Finset.univ.fold max ⊥) (funext fun j' => congrArg P (lift_row hr r j'))
  have hE : ∀ j : Fin K, exp (subf P (broadcastTo ⟨2, ![K, N]⟩ (shapeCast ⟨2, ![1, N]⟩
        (multiReduction .maximumf [0] ⟨1, ![N]⟩ P 0xFF800000#32 hr hφ hmax) hc) hb)) (ix2 j r)
      = Ideal.exp (P (ix2 j r) - colMax (fun j : Fin K => P (ix2 j r))) := fun j => by
    show Ideal.exp (P (ix2 j r) - _) = _
    rw [hmx j]
  unfold softmax
  rw [divf_apply, hE k, broadcastTo_1b_ab_apply, shapeCast_a_1a_apply, Ideal.multiReduction_add_single]
  refine congrArg (Ideal.div _) (Finset.sum_congr rfl fun j _ => ?_)
  rw [lift_row hr r j]
  exact hE j

end Cert.RoiHead

end
-- ==== Proof.Payload.lean ====
/-
  What the kernel body leaves in its three output blocks, read entry by entry, at the extended reals.
  A grid point holds 256 ROIs. From its input block x0 (7 × 7 × 256 ROIs × 256 channels) the body cuts the 49
  spatial positions, adds them by the pairing tree, scales by the named constant 1/49 and transposes: the
  channel-major mean block `meanT` (channel c, ROI r). The class weights x1 (81 × 256, already transposed) times
  `meanT`, plus the bias x2 as a column, is the classes-major logits block; its column softmax is the
  probabilities block; the box weights x3 (4 × 256) times `meanT` plus the bias x4 is the deltas block.
  Each generated output term is one of these three blocks (by unfolding), and each block at entry (k, r) is the
  specification's `dense` / `softmax` at the ROI the entry belongs to, once the input blocks are known to hold
  the arguments' entries (the hypotheses `h0`, `h1`, `h2`).
-/
import proofs.«179187_g2559800508426_cont_9to1_580_17_alg».proof.Proof.Gen.KernelIdeal.Frame
import proofs.«179187_g2559800508426_cont_9to1_580_17_alg».proof.Proof.ColumnOps
import Idealize.ShloMosaic.PureOps.IdealRules

noncomputable section

namespace Cert.KernelIdeal.Body

open Cert.KernelIdeal Cert.KernelIdeal.Gen Cert.RoiHead Idealize.ShloMosaic Idealize.ShloMosaic.ValueIdx

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The kernel's scale, named 1/49 by the certificate's table, denotes that rational. -/
theorem inv49 : Named.named (F := Ideal) κ "inv_49" (φ := .f32) 0x3CA72F05#32 = ((1 / 49 : ℝ) : EReal) :=
  IdealRules.named_const.ideal_named_scalar _ _ _ _ rfl

/-- Every spatial position is a legal cut of the input block. -/
theorem slices_window (p q : Fin 7) : S7x7x256x256.Slices ![p.val, q.val, 0, 0] S1x1x256x256 :=
  ⟨rfl, fun a => by
    match a with
    | ⟨0, _⟩ => show p.val + 1 ≤ 7; omega
    | ⟨1, _⟩ => show q.val + 1 ≤ 7; omega
    | ⟨2, _⟩ => show 0 + 256 ≤ 256; omega
    | ⟨3, _⟩ => show 0 + 256 ≤ 256; omega⟩

/-- The input block at spatial position (p, q), as a 256 ROIs × 256 channels matrix. -/
def leaf (x0 : Vec Ideal S7x7x256x256 .f32) (p q : Fin 7) : FVec Ideal S256x256 .f32 :=
  shapeCast S256x256 (extractStridedSlice S1x1x256x256 ![p.val, q.val, 0, 0]
    (shapeCast S7x7x256x256 x0 shapeCasts_S7x7x256x256_S7x7x256x256) (slices_window p q)) shapeCasts_S1x1x256x256_S256x256

theorem leaf_apply (x0 : Vec Ideal S7x7x256x256 .f32) (p q : Fin 7) (r c : Fin 256) :
    leaf x0 p q (ix2 r c) = x0 (ix4 p q r c) :=
  (window_slice_apply _ p q _ _ r c).trans (congrFun (shapeCast_self x0 _) _)

/-- The channel-major mean block: the 49 positions added by the pairing tree, times 1/49, transposed. -/
def meanT (x0 : Vec Ideal S7x7x256x256 .f32) : FVec Ideal S256x256 .f32 :=
  transpose S256x256 [1, 0]
    (mulf (pairTree (leaf x0)) (broadcast S256x256 (Named.named κ "inv_49" (0x3CA72F05#32 : BitVec 32))))
    transposes_S256x256_p1_0_S256x256

theorem meanT_apply (x0 : Vec Ideal S7x7x256x256 .f32) (c r : Fin 256) :
    meanT x0 (ix2 c r) = (∑ p : Fin 7, ∑ q : Fin 7, x0 (ix4 p q r c)) * ((1 / 49 : ℝ) : EReal) := by
  unfold meanT
  refine (transpose_ix2_apply _ _ c r).trans ?_
  show pairTree (leaf x0) (ix2 r c) * Named.named (F := Ideal) κ "inv_49" (φ := .f32) 0x3CA72F05#32 = _
  rw [inv49]
  refine congrArg (· * ((1 / 49 : ℝ) : EReal)) ?_
  refine Eq.trans (b := pairTree (fun p q => leaf x0 p q (ix2 r c))) rfl ?_
  rw [pairTree_eq_sum]
  exact Finset.sum_congr rfl fun p _ => Finset.sum_congr rfl fun q _ => leaf_apply x0 p q r c

/-- The classes-major logits block. -/
def logitsBlock (x0 : Vec Ideal S7x7x256x256 .f32) (x1 : Vec Ideal S81x256 .f32) (x2 : Vec Ideal S1x81 .f32) : FVec Ideal S81x256 .f32 :=
  addf (matmul dot_S81x256_S256x256_S81x256_1_0_0_1_n_n none
      (shapeCast S81x256 x1 shapeCasts_S81x256_S81x256 : FVec Ideal S81x256 .f32) (meanT x0) (constant S81x256 .f32 0x00000000#32))
    (broadcastTo S81x256 (transpose S81x1 [1, 0] (shapeCast S1x81 x2 shapeCasts_S1x81_S1x81 : FVec Ideal S1x81 .f32)
      transposes_S1x81_p1_0_S81x1) broadcasts_S81x1_S81x256)

/-- The deltas block. -/
def deltasBlock (x0 : Vec Ideal S7x7x256x256 .f32) (x3 : Vec Ideal S4x256 .f32) (x4 : Vec Ideal S1x4 .f32) : FVec Ideal S4x256 .f32 :=
  addf (matmul dot_S4x256_S256x256_S4x256_1_0_0_1_n_n none
      (shapeCast S4x256 x3 shapeCasts_S4x256_S4x256 : FVec Ideal S4x256 .f32) (meanT x0) (constant S4x256 .f32 0x00000000#32))
    (broadcastTo S4x256 (transpose S4x1 [1, 0] (shapeCast S1x4 x4 shapeCasts_S1x4_S1x4 : FVec Ideal S1x4 .f32)
      transposes_S1x4_p1_0_S4x1) broadcasts_S4x1_S4x256)

/-- The column maximum of a classes-major block, spread back over the classes. -/
def colMaxBlock (P : FVec Ideal S81x256 .f32) : FVec Ideal S81x256 .f32 :=
  broadcastTo S81x256 (shapeCast S1x256 (multiReduction .maximumf [0] S256 P 0xFF800000#32 reduces_S81x256_S256 (.inl rfl) rfl)
    shapeCasts_S256_S1x256) broadcasts_S1x256_S81x256

/-- The column softmax of a classes-major block, as the body computes it. -/
def probsBlock (P : FVec Ideal S81x256 .f32) : FVec Ideal S81x256 .f32 :=
  divf (exp (subf P (colMaxBlock P)))
    (broadcastTo S81x256 (shapeCast S1x256
      (multiReduction .add [0] S256 (exp (subf P (colMaxBlock P))) 0x00000000#32 reduces_S81x256_S256 (.inl rfl) rfl)
      shapeCasts_S256_S1x256) broadcasts_S1x256_S81x256)

set_option maxRecDepth 65536 in
/-- The body's logits output is the logits block. -/
theorem out5_eq (x0 : Vec Ideal S7x7x256x256 .f32) (x1 : Vec Ideal S81x256 .f32) (x2 : Vec Ideal S1x81 .f32)
    (x3 : Vec Ideal S4x256 .f32) (x4 : Vec Ideal S1x4 .f32) :
    out0_5 x0 x1 x2 x3 x4 = logitsBlock x0 x1 x2 := by
  unfold out0_5
  rw [View.canon_unit_zero hz2]
  simp only [View.ld_unit_zero (S := S7x7x256x256) hz4, View.ld_unit_zero (S := S81x256) hz2, View.ld_unit_zero (S := S1x81) hz2]
  rfl

set_option maxRecDepth 65536 in
/-- The body's probabilities output is the column softmax of the logits block. -/
theorem out6_eq (x0 : Vec Ideal S7x7x256x256 .f32) (x1 : Vec Ideal S81x256 .f32) (x2 : Vec Ideal S1x81 .f32)
    (x3 : Vec Ideal S4x256 .f32) (x4 : Vec Ideal S1x4 .f32) :
    out0_6 x0 x1 x2 x3 x4 = probsBlock (logitsBlock x0 x1 x2) := by
  unfold out0_6
  rw [View.canon_unit_zero hz2]
  simp only [View.ld_unit_zero (S := S7x7x256x256) hz4, View.ld_unit_zero (S := S81x256) hz2, View.ld_unit_zero (S := S1x81) hz2]
  rfl

set_option maxRecDepth 65536 in
/-- The body's deltas output is the deltas block. -/
theorem out7_eq (x0 : Vec Ideal S7x7x256x256 .f32) (x1 : Vec Ideal S81x256 .f32) (x2 : Vec Ideal S1x81 .f32)
    (x3 : Vec Ideal S4x256 .f32) (x4 : Vec Ideal S1x4 .f32) :
    out0_7 x0 x1 x2 x3 x4 = deltasBlock x0 x3 x4 := by
  unfold out0_7
  rw [View.canon_unit_zero hz2]
  simp only [View.ld_unit_zero (S := S7x7x256x256) hz4, View.ld_unit_zero (S := S4x256) hz2, View.ld_unit_zero (S := S1x4) hz2]
  rfl

/-- The logits block at class k, lane r, when the input blocks hold ROI n's window, the transposed class weights
    and the bias: the dense layer at (n, k). -/
theorem logitsBlock_entry (x0 : Vec Ideal S7x7x256x256 .f32) (x1 : Vec Ideal S81x256 .f32) (x2 : Vec Ideal S1x81 .f32)
    (X : (⟨4, ![8192, 7, 7, 256]⟩ : Shape).Idx → EReal) (Wl : (⟨2, ![256, 81]⟩ : Shape).Idx → EReal)
    (bl : (⟨1, ![81]⟩ : Shape).Idx → EReal) (n : Fin 8192) (r : Fin 256) (k : Fin 81)
    (h0 : ∀ (p q : Fin 7) (c : Fin 256), x0 (ix4 p q r c) = X (ix4 n p q c))
    (h1 : ∀ c : Fin 256, x1 (ix2 k c) = Wl (ix2 c k)) (h2 : x2 (ix2 (0 : Fin 1) k) = bl (ix1 k)) :
    logitsBlock x0 x1 x2 (ix2 k r) = dense X Wl bl n k := by
  unfold logitsBlock
  refine (dense_entry dot_S81x256_S256x256_S81x256_1_0_0_1_n_n_wf x1 (meanT x0) x2 _ _ _ _ k r).trans ?_
  rw [h2, ← dense_comm]
  refine congrArg (· + bl (ix1 k)) (Finset.sum_congr rfl fun c _ => ?_)
  rw [h1 c, meanT_apply]
  refine congrArg (Wl (ix2 c k) * ·) ?_
  unfold mean pooled
  exact congrArg (· * ((1 / 49 : ℝ) : EReal)) (Finset.sum_congr rfl fun p _ => Finset.sum_congr rfl fun q _ => h0 p q c)

/-- The deltas block at coordinate k, lane r: the dense layer at (n, k). -/
theorem deltasBlock_entry (x0 : Vec Ideal S7x7x256x256 .f32) (x3 : Vec Ideal S4x256 .f32) (x4 : Vec Ideal S1x4 .f32)
    (X : (⟨4, ![8192, 7, 7, 256]⟩ : Shape).Idx → EReal) (Wd : (⟨2, ![256, 4]⟩ : Shape).Idx → EReal)
    (bd : (⟨1, ![4]⟩ : Shape).Idx → EReal) (n : Fin 8192) (r : Fin 256) (k : Fin 4)
    (h0 : ∀ (p q : Fin 7) (c : Fin 256), x0 (ix4 p q r c) = X (ix4 n p q c))
    (h1 : ∀ c : Fin 256, x3 (ix2 k c) = Wd (ix2 c k)) (h2 : x4 (ix2 (0 : Fin 1) k) = bd (ix1 k)) :
    deltasBlock x0 x3 x4 (ix2 k r) = dense X Wd bd n k := by
  unfold deltasBlock
  refine (dense_entry dot_S4x256_S256x256_S4x256_1_0_0_1_n_n_wf x3 (meanT x0) x4 _ _ _ _ k r).trans ?_
  rw [h2, ← dense_comm]
  refine congrArg (· + bd (ix1 k)) (Finset.sum_congr rfl fun c _ => ?_)
  rw [h1 c, meanT_apply]
  refine congrArg (Wd (ix2 c k) * ·) ?_
  unfold mean pooled
  exact congrArg (· * ((1 / 49 : ℝ) : EReal)) (Finset.sum_congr rfl fun p _ => Finset.sum_congr rfl fun q _ => h0 p q c)

/-- The probabilities block at class k, lane r: the softmax of ROI n's logits, at k. -/
theorem probsBlock_entry (P : FVec Ideal S81x256 .f32) (L : Fin 81 → EReal) (r : Fin 256) (k : Fin 81)
    (hP : ∀ j : Fin 81, P (ix2 j r) = L j) :
    probsBlock P (ix2 k r) = softmax L k := by
  unfold probsBlock colMaxBlock
  refine (softmax_column (K := 81) (N := 256) P reduces_S81x256_S256 (.inl rfl) rfl rfl
    shapeCasts_S256_S1x256 broadcasts_S1x256_S81x256 k r).trans ?_
  exact congrArg (fun L' => softmax L' k) (funext hP)

end Cert.KernelIdeal.Body

end
-- ==== Proof.KernelValue.lean ====
/-
  The kernel's three results as functions of its arguments, at the extended reals.
  Before the region the host lays the arguments out for the kernel: the ROI features with the two window axes
  in front (position (p, q) of ROI n at (p, q, n, ·)), both weight matrices transposed, both biases as one row.
  The grid has 32 points; point t holds ROIs 256·t … 256·t + 255, reads the whole weights and biases, and writes
  column block t of three classes-major arrays. Every column lies in exactly one block, so after the region the
  arrays hold, at (k, n), the dense layer, its softmax and the box dense layer of ROI n. After the region the host
  transposes the three arrays back to (ROI, class) order.
-/
import proofs.«179187_g2559800508426_cont_9to1_580_17_alg».proof.Proof.Gen.KernelIdeal.Frame
import proofs.«179187_g2559800508426_cont_9to1_580_17_alg».proof.Proof.Payload
import Idealize.ShloMosaic.Lib.Pipeline.Value
import Idealize.ShloMosaic.Lib.StableHlo.Run
import Idealize.ShloMosaic.Lib.ValueLayout

noncomputable section

namespace Cert.KernelIdeal.KValue

open Cert.KernelIdeal Cert.KernelIdeal.Gen Cert.KernelIdeal.Body Cert.RoiHead
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The five arguments on core `c`, as launched. -/
abbrev argX (c : Dev nD) : S8192x7x7x256.Idx → EReal := m ((c : Thread nD τ).loc main_arg0)
abbrev argWl (c : Dev nD) : S256x81.Idx → EReal := m ((c : Thread nD τ).loc main_arg1)
abbrev argBl (c : Dev nD) : S81.Idx → EReal := m ((c : Thread nD τ).loc main_arg2)
abbrev argWd (c : Dev nD) : S256x4.Idx → EReal := m ((c : Thread nD τ).loc main_arg3)
abbrev argBd (c : Dev nD) : S4.Idx → EReal := m ((c : Thread nD τ).loc main_arg4)

/-! ## The arrays the region finds -/

theorem V_v0 (c : Dev nD) : (V m c main_v0 : S7x7x8192x256.Idx → EReal)
    = transpose S7x7x8192x256 [1, 2, 0, 3] (argX m c) transposes_S8192x7x7x256_S7x7x8192x256_1_2_0_3 := by
  show StableHlo.after hostOps0 (fun b => m (c, b)) (Proc.devRef .tc main_v0) = _
  after_results

theorem V_v1 (c : Dev nD) : (V m c main_v1 : S81x256.Idx → EReal)
    = transpose S81x256 [1, 0] (argWl m c) transposes_S256x81_S81x256_1_0 := by
  show StableHlo.after hostOps0 (fun b => m (c, b)) (Proc.devRef .tc main_v1) = _
  after_results

theorem V_v2 (c : Dev nD) : (V m c main_v2 : S4x256.Idx → EReal)
    = transpose S4x256 [1, 0] (argWd m c) transposes_S256x4_S4x256_1_0 := by
  show StableHlo.after hostOps0 (fun b => m (c, b)) (Proc.devRef .tc main_v2) = _
  after_results

theorem V_v3 (c : Dev nD) : (V m c main_v3 : S1x81.Idx → EReal) = shapeCast S1x81 (argBl m c) shapeCasts_S81_S1x81 := by
  show StableHlo.after hostOps0 (fun b => m (c, b)) (Proc.devRef .tc main_v3) = _
  after_results
  rfl

theorem V_v4 (c : Dev nD) : (V m c main_v4 : S1x4.Idx → EReal) = shapeCast S1x4 (argBd m c) shapeCasts_S4_S1x4 := by
  show StableHlo.after hostOps0 (fun b => m (c, b)) (Proc.devRef .tc main_v4) = _
  after_results
  rfl

/-- Position (p, q) of ROI n sits at (p, q, n, ·). -/
theorem V_v0_apply (c : Dev nD) (p q : Fin 7) (n : Fin 8192) (ch : Fin 256) :
    (V m c main_v0 : S7x7x8192x256.Idx → EReal) (ix4 p q n ch) = argX m c (ix4 n p q ch) := by
  rw [V_v0]
  exact transpose_apply _ _ _ _ _ fun b => by
    match b with
    | ⟨0, _⟩ => rfl
    | ⟨1, _⟩ => rfl
    | ⟨2, _⟩ => rfl
    | ⟨3, _⟩ => rfl

theorem V_v1_apply (c : Dev nD) (k : Fin 81) (ch : Fin 256) :
    (V m c main_v1 : S81x256.Idx → EReal) (ix2 k ch) = argWl m c (ix2 ch k) := by
  rw [V_v1]; exact transpose_ix2_apply _ _ k ch

theorem V_v2_apply (c : Dev nD) (k : Fin 4) (ch : Fin 256) :
    (V m c main_v2 : S4x256.Idx → EReal) (ix2 k ch) = argWd m c (ix2 ch k) := by
  rw [V_v2]; exact transpose_ix2_apply _ _ k ch

theorem V_v3_apply (c : Dev nD) (k : Fin 81) :
    (V m c main_v3 : S1x81.Idx → EReal) (ix2 (0 : Fin 1) k) = argBl m c (ix1 k) := by
  rw [V_v3]; exact shapeCast_a_1a_apply _ _ 0 k

theorem V_v4_apply (c : Dev nD) (k : Fin 4) :
    (V m c main_v4 : S1x4.Idx → EReal) (ix2 (0 : Fin 1) k) = argBd m c (ix1 k) := by
  rw [V_v4]; exact shapeCast_a_1a_apply _ _ 0 k

/-! ## The blocks of a grid point -/

/-- The block indices, decided over the 32 points: the ROI window moves along its ROI axis with the point, the
    weights and biases stay at block 0, the three outputs move along their column axis with the point. -/
theorem idx_facts : ∀ t : Fin cfg0.N,
    win0_0.index t (0 : Fin 4) = 0 ∧ win0_0.index t (1 : Fin 4) = 0 ∧ win0_0.index t (2 : Fin 4) = t.val ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

/-- ROI `256·t + r`: lane r of grid point t. -/
def roi (t : Fin cfg0.N) (r : Fin 256) : Fin 8192 :=
  ⟨t.val * 256 + r.val, by have h := t.isLt; have hN : cfg0.N = 32 := N_0; omega⟩

/-- The point holding ROI n. -/
def pointOf (n : Fin 8192) : Fin cfg0.N :=
  ⟨n.val / 256, by have hN : cfg0.N = 32 := N_0; rw [hN]; omega⟩

theorem iblk0_apply (c : Dev nD) (t : Fin cfg0.N) (p q : Fin 7) (r ch : Fin 256) :
    (iblk m c 0 t : Vec Ideal S7x7x256x256 .f32) (ix4 p q r ch) = argX m c (ix4 (roi t r) p q ch) := by
  obtain ⟨e0, e1, e2, e3, -⟩ := idx_facts t
  refine Eq.trans ?_ (V_v0_apply m c p q (roi t r) ch)
  unfold iblk
  rw [View.read_apply]
  show V m c main_v0 (((cfg0.win 0).blk t).view.emb (ix4 p q r ch)) = V m c main_v0 (ix4 p q (roi t r) ch)
  refine congrArg (V m c main_v0) (funext fun a => Fin.ext ?_)
  match a with
  | ⟨0, _⟩ => show win0_0.index t (0 : Fin 4) * 7 + 1 * p.val = p.val; omega
  | ⟨1, _⟩ => show win0_0.index t (1 : Fin 4) * 7 + 1 * q.val = q.val; omega
  | ⟨2, _⟩ => show win0_0.index t (2 : Fin 4) * 256 + 1 * r.val = t.val * 256 + r.val; omega
  | ⟨3, _⟩ => show win0_0.index t (3 : Fin 4) * 256 + 1 * ch.val = ch.val; omega

theorem iblk1_apply (c : Dev nD) (t : Fin cfg0.N) (k : Fin 81) (ch : Fin 256) :
    (iblk m c 1 t : Vec Ideal S81x256 .f32) (ix2 k ch) = argWl m c (ix2 ch k) := by
  obtain ⟨-, -, -, -, e0, e1, -⟩ := idx_facts t
  refine Eq.trans ?_ (V_v1_apply m c k ch)
  unfold iblk
  rw [View.read_apply]
  show V m c main_v1 (((cfg0.win 1).blk t).view.emb (ix2 k ch)) = V m c main_v1 (ix2 k ch)
  refine congrArg (V m c main_v1) (funext fun a => Fin.ext ?_)
  match a with
  | ⟨0, _⟩ => show win0_1.index t (0 : Fin 2) * 81 + 1 * k.val = k.val; omega
  | ⟨1, _⟩ => show win0_1.index t (1 : Fin 2) * 256 + 1 * ch.val = ch.val; omega

theorem iblk2_apply (c : Dev nD) (t : Fin cfg0.N) (k : Fin 81) :
    (iblk m c 2 t : Vec Ideal S1x81 .f32) (ix2 (0 : Fin 1) k) = argBl m c (ix1 k) := by
  obtain ⟨-, -, -, -, -, -, e0, e1, -⟩ := idx_facts t
  refine Eq.trans ?_ (V_v3_apply m c k)
  unfold iblk
  rw [View.read_apply]
  show V m c main_v3 (((cfg0.win 2).blk t).view.emb (ix2 (0 : Fin 1) k)) = V m c main_v3 (ix2 (0 : Fin 1) k)
  refine congrArg (V m c main_v3) (funext fun a => Fin.ext ?_)
  match a with
  | ⟨0, _⟩ => show win0_2.index t (0 : Fin 2) * 1 + 1 * 0 = 0; omega
  | ⟨1, _⟩ => show win0_2.index t (1 : Fin 2) * 81 + 1 * k.val = k.val; omega

theorem iblk3_apply (c : Dev nD) (t : Fin cfg0.N) (k : Fin 4) (ch : Fin 256) :
    (iblk m c 3 t : Vec Ideal S4x256 .f32) (ix2 k ch) = argWd m c (ix2 ch k) := by
  obtain ⟨-, -, -, -, -, -, -, -, e0, e1, -⟩ := idx_facts t
  refine Eq.trans ?_ (V_v2_apply m c k ch)
  unfold iblk
  rw [View.read_apply]
  show V m c main_v2 (((cfg0.win 3).blk t).view.emb (ix2 k ch)) = V m c main_v2 (ix2 k ch)
  refine congrArg (V m c main_v2) (funext fun a => Fin.ext ?_)
  match a with
  | ⟨0, _⟩ => show win0_3.index t (0 : Fin 2) * 4 + 1 * k.val = k.val; omega
  | ⟨1, _⟩ => show win0_3.index t (1 : Fin 2) * 256 + 1 * ch.val = ch.val; omega

theorem iblk4_apply (c : Dev nD) (t : Fin cfg0.N) (k : Fin 4) :
    (iblk m c 4 t : Vec Ideal S1x4 .f32) (ix2 (0 : Fin 1) k) = argBd m c (ix1 k) := by
  obtain ⟨-, -, -, -, -, -, -, -, -, -, e0, e1, -⟩ := idx_facts t
  refine Eq.trans ?_ (V_v4_apply m c k)
  unfold iblk
  rw [View.read_apply]
  show V m c main_v4 (((cfg0.win 4).blk t).view.emb (ix2 (0 : Fin 1) k)) = V m c main_v4 (ix2 (0 : Fin 1) k)
  refine congrArg (V m c main_v4) (funext fun a => Fin.ext ?_)
  match a with
  | ⟨0, _⟩ => show win0_4.index t (0 : Fin 2) * 1 + 1 * 0 = 0; omega
  | ⟨1, _⟩ => show win0_4.index t (1 : Fin 2) * 4 + 1 * k.val = k.val; omega

/-! ## The three classes-major arrays after the region -/

/-- Logits, probabilities and deltas with the class (or box coordinate) first and the ROI second. -/
def logitsT (c : Dev nD) : S81x8192.Idx → EReal := fun i => dense (argX m c) (argWl m c) (argBl m c) (i 1) (i 0)
def probsT (c : Dev nD) : S81x8192.Idx → EReal :=
  fun i => softmax (fun j : Fin 81 => dense (argX m c) (argWl m c) (argBl m c) (i 1) j) (i 0)
def deltasT (c : Dev nD) : S4x8192.Idx → EReal := fun i => dense (argX m c) (argWd m c) (argBd m c) (i 1) (i 0)

theorem logits_entry (c : Dev nD) (t : Fin cfg0.N) (k : Fin 81) (r : Fin 256) :
    logitsBlock (iblk m c 0 t) (iblk m c 1 t) (iblk m c 2 t) (ix2 k r)
      = dense (argX m c) (argWl m c) (argBl m c) (roi t r) k :=
  logitsBlock_entry _ _ _ (argX m c) (argWl m c) (argBl m c) (roi t r) r k
    (fun p q ch => iblk0_apply m c t p q r ch) (fun ch => iblk1_apply m c t k ch) (iblk2_apply m c t k)

theorem flushed5_eq (c : Dev nD) (t : Fin cfg0.N) :
    (dats m 0 c).flushed 5 t = ((cfg0.win 5).blk t).view.read (Elt Ideal) (logitsT m c) := by
  show (cfg0.win 5).cut (grid0.coords t) ((dats m 0 c).after 5 t) = _
  rw [after0_5, out5_eq]
  obtain ⟨-, -, -, -, -, -, -, -, -, -, -, -, e0, e1, -⟩ := idx_facts t
  refine funext fun (j : S81x256.Idx) => ?_
  obtain ⟨k, r, rfl⟩ : ∃ (k : Fin 81) (r : Fin 256), j = ix2 k r := ⟨j 0, j 1, eq_ix2 j⟩
  have ea : ((cfg0.win 5).blk t).view.emb (ix2 k r) = ix2 k (roi t r) := funext fun a => Fin.ext (by
    match a with
    | ⟨0, _⟩ => show win0_5.index t (0 : Fin 2) * 81 + 1 * k.val = k.val; omega
    | ⟨1, _⟩ => show win0_5.index t (1 : Fin 2) * 256 + 1 * r.val = t.val * 256 + r.val; omega)
  show logitsBlock (iblk m c 0 t) (iblk m c 1 t) (iblk m c 2 t) (ix2 k r) = logitsT m c (((cfg0.win 5).blk t).view.emb (ix2 k r))
  rw [ea, logits_entry]
  rfl

theorem flushed6_eq (c : Dev nD) (t : Fin cfg0.N) :
    (dats m 0 c).flushed 6 t = ((cfg0.win 6).blk t).view.read (Elt Ideal) (probsT m c) := by
  show (cfg0.win 6).cut (grid0.coords t) ((dats m 0 c).after 6 t) = _
  rw [after0_6, out6_eq]
  obtain ⟨-, -, -, -, -, -, -, -, -, -, -, -, -, -, e0, e1, -⟩ := idx_facts t
  refine funext fun (j : S81x256.Idx) => ?_
  obtain ⟨k, r, rfl⟩ : ∃ (k : Fin 81) (r : Fin 256), j = ix2 k r := ⟨j 0, j 1, eq_ix2 j⟩
  have ea : ((cfg0.win 6).blk t).view.emb (ix2 k r) = ix2 k (roi t r) := funext fun a => Fin.ext (by
    match a with
    | ⟨0, _⟩ => show win0_6.index t (0 : Fin 2) * 81 + 1 * k.val = k.val; omega
    | ⟨1, _⟩ => show win0_6.index t (1 : Fin 2) * 256 + 1 * r.val = t.val * 256 + r.val; omega)
  show probsBlock (logitsBlock (iblk m c 0 t) (iblk m c 1 t) (iblk m c 2 t)) (ix2 k r)
    = probsT m c (((cfg0.win 6).blk t).view.emb (ix2 k r))
  rw [ea, probsBlock_entry _ (fun j : Fin 81 => dense (argX m c) (argWl m c) (argBl m c) (roi t r) j) r k
    (fun j => logits_entry m c t j r)]
  rfl

theorem flushed7_eq (c : Dev nD) (t : Fin cfg0.N) :
    (dats m 0 c).flushed 7 t = ((cfg0.win 7).blk t).view.read (Elt Ideal) (deltasT m c) := by
  show (cfg0.win 7).cut (grid0.coords t) ((dats m 0 c).after 7 t) = _
  rw [after0_7, out7_eq]
  obtain ⟨-, -, -, -, -, -, -, -, -, -, -, -, -, -, -, -, e0, e1⟩ := idx_facts t
  refine funext fun (j : S4x256.Idx) => ?_
  obtain ⟨k, r, rfl⟩ : ∃ (k : Fin 4) (r : Fin 256), j = ix2 k r := ⟨j 0, j 1, eq_ix2 j⟩
  have ea : ((cfg0.win 7).blk t).view.emb (ix2 k r) = ix2 k (roi t r) := funext fun a => Fin.ext (by
    match a with
    | ⟨0, _⟩ => show win0_7.index t (0 : Fin 2) * 4 + 1 * k.val = k.val; omega
    | ⟨1, _⟩ => show win0_7.index t (1 : Fin 2) * 256 + 1 * r.val = t.val * 256 + r.val; omega)
  show deltasBlock (iblk m c 0 t) (iblk m c 3 t) (iblk m c 4 t) (ix2 k r) = deltasT m c (((cfg0.win 7).blk t).view.emb (ix2 k r))
  rw [ea, deltasBlock_entry _ _ _ (argX m c) (argWd m c) (argBd m c) (roi t r) r k
    (fun p q ch => iblk0_apply m c t p q r ch) (fun ch => iblk3_apply m c t k ch) (iblk4_apply m c t k)]
  rfl

/-- An index of a classes-major array is in point t's block iff each coordinate is in the block's range. -/
theorem mem_blk5 (t : Fin cfg0.N) (i : S81x8192.Idx) :
    i ∈ ((cfg0.win 5).blk t).view.set ↔ ∀ a : Fin 2, win0_5.index t a * S81x256.size a ≤ (i a).val ∧ (i a).val < win0_5.index t a * S81x256.size a + S81x256.size a := by
  show i ∈ ((View.whole main_v5_0).slice (win0_5.rect t)).set ↔ _
  rw [View.set_slice_whole, Rect.mem_set_unit]
  exact Iff.rfl

theorem mem_blk6 (t : Fin cfg0.N) (i : S81x8192.Idx) :
    i ∈ ((cfg0.win 6).blk t).view.set ↔ ∀ a : Fin 2, win0_6.index t a * S81x256.size a ≤ (i a).val ∧ (i a).val < win0_6.index t a * S81x256.size a + S81x256.size a := by
  show i ∈ ((View.whole main_v5_1).slice (win0_6.rect t)).set ↔ _
  rw [View.set_slice_whole, Rect.mem_set_unit]
  exact Iff.rfl

theorem mem_blk7 (t : Fin cfg0.N) (i : S4x8192.Idx) :
    i ∈ ((cfg0.win 7).blk t).view.set ↔ ∀ a : Fin 2, win0_7.index t a * S4x256.size a ≤ (i a).val ∧ (i a).val < win0_7.index t a * S4x256.size a + S4x256.size a := by
  show i ∈ ((View.whole main_v5_2).slice (win0_7.rect t)).set ↔ _
  rw [View.set_slice_whole, Rect.mem_set_unit]
  exact Iff.rfl

/-- Column n lies in the block of point n / 256. -/
theorem cover5 (i : S81x8192.Idx) : ∃ t : Fin cfg0.N, (cfg0.win 5).flush t = true ∧ i ∈ ((cfg0.win 5).blk t).view.set := by
  have h0 : (i 0).val < 81 := (i 0).isLt
  have h1 : (i 1).val < 8192 := (i 1).isLt
  refine ⟨pointOf ⟨(i 1).val, h1⟩, flush0_5 _, ?_⟩
  obtain ⟨-, -, -, -, -, -, -, -, -, -, -, -, e0, e1, -⟩ := idx_facts (pointOf ⟨(i 1).val, h1⟩)
  have et : (pointOf ⟨(i 1).val, h1⟩).val = (i 1).val / 256 := rfl
  rw [mem_blk5]
  intro a
  match a with
  | ⟨0, _⟩ => show win0_5.index _ (0 : Fin 2) * 81 ≤ (i 0).val ∧ (i 0).val < win0_5.index _ (0 : Fin 2) * 81 + 81; omega
  | ⟨1, _⟩ => show win0_5.index _ (1 : Fin 2) * 256 ≤ (i 1).val ∧ (i 1).val < win0_5.index _ (1 : Fin 2) * 256 + 256; omega

theorem cover6 (i : S81x8192.Idx) : ∃ t : Fin cfg0.N, (cfg0.win 6).flush t = true ∧ i ∈ ((cfg0.win 6).blk t).view.set := by
  have h0 : (i 0).val < 81 := (i 0).isLt
  have h1 : (i 1).val < 8192 := (i 1).isLt
  refine ⟨pointOf ⟨(i 1).val, h1⟩, flush0_6 _, ?_⟩
  obtain ⟨-, -, -, -, -, -, -, -, -, -, -, -, -, -, e0, e1, -⟩ := idx_facts (pointOf ⟨(i 1).val, h1⟩)
  have et : (pointOf ⟨(i 1).val, h1⟩).val = (i 1).val / 256 := rfl
  rw [mem_blk6]
  intro a
  match a with
  | ⟨0, _⟩ => show win0_6.index _ (0 : Fin 2) * 81 ≤ (i 0).val ∧ (i 0).val < win0_6.index _ (0 : Fin 2) * 81 + 81; omega
  | ⟨1, _⟩ => show win0_6.index _ (1 : Fin 2) * 256 ≤ (i 1).val ∧ (i 1).val < win0_6.index _ (1 : Fin 2) * 256 + 256; omega

theorem cover7 (i : S4x8192.Idx) : ∃ t : Fin cfg0.N, (cfg0.win 7).flush t = true ∧ i ∈ ((cfg0.win 7).blk t).view.set := by
  have h0 : (i 0).val < 4 := (i 0).isLt
  have h1 : (i 1).val < 8192 := (i 1).isLt
  refine ⟨pointOf ⟨(i 1).val, h1⟩, flush0_7 _, ?_⟩
  obtain ⟨-, -, -, -, -, -, -, -, -, -, -, -, -, -, -, -, e0, e1⟩ := idx_facts (pointOf ⟨(i 1).val, h1⟩)
  have et : (pointOf ⟨(i 1).val, h1⟩).val = (i 1).val / 256 := rfl
  rw [mem_blk7]
  intro a
  match a with
  | ⟨0, _⟩ => show win0_7.index _ (0 : Fin 2) * 4 ≤ (i 0).val ∧ (i 0).val < win0_7.index _ (0 : Fin 2) * 4 + 4; omega
  | ⟨1, _⟩ => show win0_7.index _ (1 : Fin 2) * 256 ≤ (i 1).val ∧ (i 1).val < win0_7.index _ (1 : Fin 2) * 256 + 256; omega

theorem final5 (c : Dev nD) : (dats m 0 c).arrAt 5 cfg0.N = logitsT m c :=
  (dats m 0 c).arrAt_eq_of_cover 5 (logitsT m c) (fun t _ => flushed5_eq m c t) cover5

theorem final6 (c : Dev nD) : (dats m 0 c).arrAt 6 cfg0.N = probsT m c :=
  (dats m 0 c).arrAt_eq_of_cover 6 (probsT m c) (fun t _ => flushed6_eq m c t) cover6

theorem final7 (c : Dev nD) : (dats m 0 c).arrAt 7 cfg0.N = deltasT m c :=
  (dats m 0 c).arrAt_eq_of_cover 7 (deltasT m c) (fun t _ => flushed7_eq m c t) cover7

/-! ## After the region: the host's transposes back, and the run -/

/-- What the lines after the region read: the three arrays of the region. -/
theorem arr5 (c : Dev nD) :
    Pipeline.withArrays (cfgs 0).spec c (V0 m c) (fun w => (dats m 0 c).arrAt w (cfgs 0).N) (Proc.devRef .tc main_v5_0)
      = logitsT m c :=
  (Pipeline.withArrays_arr spec0 launch0.win.arr_inj c _ _ 5).trans (final5 m c)

theorem arr6 (c : Dev nD) :
    Pipeline.withArrays (cfgs 0).spec c (V0 m c) (fun w => (dats m 0 c).arrAt w (cfgs 0).N) (Proc.devRef .tc main_v5_1)
      = probsT m c :=
  (Pipeline.withArrays_arr spec0 launch0.win.arr_inj c _ _ 6).trans (final6 m c)

theorem arr7 (c : Dev nD) :
    Pipeline.withArrays (cfgs 0).spec c (V0 m c) (fun w => (dats m 0 c).arrAt w (cfgs 0).N) (Proc.devRef .tc main_v5_2)
      = deltasT m c :=
  (Pipeline.withArrays_arr spec0 launch0.win.arr_inj c _ _ 7).trans (final7 m c)

/-- The first result: the logits, ROI by class. -/
theorem res_v6 (c : Dev nD) :
    Pipeline.afterTail₀ cfgs (dats m) 0 (V0 m) [hostOps1] c main_v6 = logits (argX m c) (argWl m c) (argBl m c) := by
  unfold Pipeline.afterTail₀
  show StableHlo.after hostOps1 _ (Proc.devRef .tc main_v6) = _
  after_results
  refine (congrArg (fun A => transpose S8192x81 [1, 0] A transposes_S81x8192_S8192x81_1_0) (arr5 m c)).trans ?_
  funext i
  obtain ⟨n, k, rfl⟩ : ∃ (n : Fin 8192) (k : Fin 81), i = ix2 n k := ⟨i 0, i 1, eq_ix2 i⟩
  exact (transpose_ix2_apply (logitsT m c) _ n k).trans rfl

/-- The second result: the class probabilities. -/
theorem res_v7 (c : Dev nD) :
    Pipeline.afterTail₀ cfgs (dats m) 0 (V0 m) [hostOps1] c main_v7 = probs (argX m c) (argWl m c) (argBl m c) := by
  unfold Pipeline.afterTail₀
  show StableHlo.after hostOps1 _ (Proc.devRef .tc main_v7) = _
  after_results
  refine (congrArg (fun A => transpose S8192x81 [1, 0] A transposes_S81x8192_S8192x81_1_0) (arr6 m c)).trans ?_
  funext i
  obtain ⟨n, k, rfl⟩ : ∃ (n : Fin 8192) (k : Fin 81), i = ix2 n k := ⟨i 0, i 1, eq_ix2 i⟩
  exact (transpose_ix2_apply (probsT m c) _ n k).trans rfl

/-- The third result: the box deltas. -/
theorem res_v8 (c : Dev nD) :
    Pipeline.afterTail₀ cfgs (dats m) 0 (V0 m) [hostOps1] c main_v8 = deltas (argX m c) (argWd m c) (argBd m c) := by
  unfold Pipeline.afterTail₀
  show StableHlo.after hostOps1 _ (Proc.devRef .tc main_v8) = _
  after_results
  refine (congrArg (fun A => transpose S8192x4 [1, 0] A transposes_S4x8192_S8192x4_1_0) (arr7 m c)).trans ?_
  funext i
  obtain ⟨n, k, rfl⟩ : ∃ (n : Fin 8192) (k : Fin 4), i = ix2 n k := ⟨i 0, i 1, eq_ix2 i⟩
  exact (transpose_ix2_apply (deltasT m c) _ n k).trans rfl

/-- Every weakly fair execution of the idealized kernel ends with its three results at the specification of its
    arguments, and the arguments as launched. -/
theorem run : θ_run defs (onTc (τ := τ) (main (F := Ideal))) ⟨m, fun _ => 0, ρ⟩ fun r => ∀ c : Dev nD,
      r.2.mem ((c.tc : Thread nD τ).loc main_v6) = logits (argX m c) (argWl m c) (argBl m c)
      ∧ r.2.mem ((c.tc : Thread nD τ).loc main_v7) = probs (argX m c) (argWl m c) (argBl m c)
      ∧ r.2.mem ((c.tc : Thread nD τ).loc main_v8) = deltas (argX m c) (argWd m c) (argBd m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (res_v6 m c),
      ((h c).2 main_v7 (Pipeline.mem_restRefs_of main_v7 (by decide) (by decide))).trans (res_v7 m c),
      ((h c).2 main_v8 (Pipeline.mem_restRefs_of main_v8 (by decide) (by decide))).trans (res_v8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.RefValue.lean ====
/-
  The reference, one operation at a time, is the specification.
  Its spatial sum runs over the two window axes at once: the indices of the input that lose their window
  coordinates to (n, c) are exactly (n, p, q, c) for the 49 positions, so the sum is the window sum, and the
  quotient by the constant 49 is the mean. Its matrix products contract the channel; its row maximum is a fold
  of `max` from −∞, taken once more against −∞; its exponentials are summed from zero; so logits, probabilities
  and deltas are `dense`, `softmax` of `dense`, and `dense` again.
-/
import proofs.«179187_g2559800508426_cont_9to1_580_17_alg».proof.Proof.Gen.ReferenceIdeal.Read
import proofs.«179187_g2559800508426_cont_9to1_580_17_alg».proof.Proof.Spec
import Idealize.ShloMosaic.Lib.IdealHost

noncomputable section

namespace Cert.ReferenceIdeal.RefValue

open Cert.ReferenceIdeal Cert.ReferenceIdeal.Gen Cert.ReferenceIdeal.Read Cert.RoiHead
open Idealize.ShloMosaic Idealize.ShloMosaic.ValueIdx

/-- The reference's divisor denotes the real 49. -/
theorem ofBits_49 : Ideal.ofBits .f32 0x42440000#32 = ((49 : ℝ) : EReal) := by
  simp [Ideal.ofBits, Ideal.ieee, -EReal.coe_mul]; norm_num

/-- The reduction's initial value −∞. -/
theorem ofBits_neg_inf : Ideal.ofBits .f32 0xFF800000#32 = (⊥ : EReal) := by
  simp [Ideal.ofBits, Ideal.ieee]

/-- Dropping the two window coordinates of (n, p, q, c) leaves (n, c). -/
theorem drop_window (h : S8192x7x7x256.ReducesTo [1, 2] S8192x256) (n : Fin 8192) (p q : Fin 7) (c : Fin 256) :
    h.drop (ix4 n p q c) = ix2 n c := by
  funext b
  apply Fin.ext
  match b with
  | ⟨0, _⟩ => rfl
  | ⟨1, _⟩ => rfl

/-- The input entries that reduce to (n, c), summed, are the window sum. -/
theorem window_filter_sum (h : S8192x7x7x256.ReducesTo [1, 2] S8192x256)
    (X : (⟨4, ![8192, 7, 7, 256]⟩ : Shape).Idx → EReal) (n : Fin 8192) (c : Fin 256) :
    ∑ i ∈ Finset.univ.filter (fun i => h.drop i = ix2 n c), X i = pooled X n c := by
  unfold pooled
  rw [← Fintype.sum_prod_type' (f := fun (p q : Fin 7) => X (ix4 n p q c))]
  have hinv : ∀ i : S8192x7x7x256.Idx, h.drop i = ix2 n c → ix4 n (i 1) (i 2) c = i := fun i hj => by
    have e0 : (i 0).val = n.val := congrArg Fin.val (congrFun hj 0)
    have e3 : (i 3).val = c.val := congrArg Fin.val (congrFun hj 1)
    funext a
    apply Fin.ext
    match a with
    | ⟨0, _⟩ => exact e0.symm
    | ⟨1, _⟩ => rfl
    | ⟨2, _⟩ => rfl
    | ⟨3, _⟩ => exact e3.symm
  refine Finset.sum_nbij' (fun i => ((i 1, i 2) : Fin 7 × Fin 7)) (fun pq => ix4 n pq.1 pq.2 c) ?_ ?_ ?_ ?_ ?_
  · intro i _; exact Finset.mem_univ _
  · intro pq _; exact Finset.mem_filter.2 ⟨Finset.mem_univ _, drop_window h n pq.1 pq.2 c⟩
  · intro i hi; exact hinv i (Finset.mem_filter.1 hi).2
  · intro pq _; rfl
  · intro i hi; exact congrArg X (hinv i (Finset.mem_filter.1 hi).2).symm

/-- The reference's pooled features are the mean. -/
theorem mean_ref (X : (⟨S8192x7x7x256, .f32⟩ : BufTy).Contents (Elt Ideal)) (n : Fin 8192) (c : Fin 256) :
    val_main_v2 (F := Ideal) X (ix2 n c) = mean X n c := by
  rw [val_main_v2_apply, val_main_v1_apply, val_main_cst_0_apply]
  show Ideal.div (Ideal.hostReduceAdd reducesTo_S8192x7x7x256_S8192x256_d1_2 X (Ideal.ofBits .f32 0x00000000#32) (ix2 n c))
    (Ideal.ofBits .f32 0x42440000#32) = _
  unfold Ideal.hostReduceAdd
  rw [window_filter_sum, Ideal.ofBits_zero_f32, ofBits_49]
  exact div49_eq_mean X n c

/-- The reference's logits are the dense layer. -/
theorem logits_ref (X : (⟨S8192x7x7x256, .f32⟩ : BufTy).Contents (Elt Ideal)) (Wl : (⟨S256x81, .f32⟩ : BufTy).Contents (Elt Ideal))
    (bl : (⟨S81, .f32⟩ : BufTy).Contents (Elt Ideal)) (n : Fin 8192) (k : Fin 81) :
    val_main_v6 (F := Ideal) X Wl bl (ix2 n k) = dense X Wl bl n k := by
  have e1 : ∀ c : Fin 256, lidx_main_v3 (ix2 n k) c = ix2 n c := fun c =>
    funext fun a => Fin.ext (by match a with | ⟨0, _⟩ => rfl | ⟨1, _⟩ => rfl)
  have e2 : ∀ c : Fin 256, ridx_main_v3 (ix2 n k) c = ix2 c k := fun c =>
    funext fun a => Fin.ext (by match a with | ⟨0, _⟩ => rfl | ⟨1, _⟩ => rfl)
  have e3 : idx_main_v4 (idx_main_v5 (ix2 n k)) = ix1 k :=
    funext fun a => Fin.ext (by match a with | ⟨0, _⟩ => rfl)
  rw [val_main_v6_apply, val_main_v3_apply, val_main_v5_apply, val_main_v4_apply, e3]
  unfold dense
  refine congrArg (· + bl (ix1 k)) (Finset.sum_congr rfl fun c _ => ?_)
  rw [e1 c, e2 c, mean_ref]

/-- The reference's deltas are the dense layer. -/
theorem deltas_ref (X : (⟨S8192x7x7x256, .f32⟩ : BufTy).Contents (Elt Ideal)) (Wd : (⟨S256x4, .f32⟩ : BufTy).Contents (Elt Ideal))
    (bd : (⟨S4, .f32⟩ : BufTy).Contents (Elt Ideal)) (n : Fin 8192) (k : Fin 4) :
    val_main_v21 (F := Ideal) X Wd bd (ix2 n k) = dense X Wd bd n k := by
  have e1 : ∀ c : Fin 256, lidx_main_v18 (ix2 n k) c = ix2 n c := fun c =>
    funext fun a => Fin.ext (by match a with | ⟨0, _⟩ => rfl | ⟨1, _⟩ => rfl)
  have e2 : ∀ c : Fin 256, ridx_main_v18 (ix2 n k) c = ix2 c k := fun c =>
    funext fun a => Fin.ext (by match a with | ⟨0, _⟩ => rfl | ⟨1, _⟩ => rfl)
  have e3 : idx_main_v19 (idx_main_v20 (ix2 n k)) = ix1 k :=
    funext fun a => Fin.ext (by match a with | ⟨0, _⟩ => rfl)
  rw [val_main_v21_apply, val_main_v18_apply, val_main_v20_apply, val_main_v19_apply, e3]
  unfold dense
  refine congrArg (· + bd (ix1 k)) (Finset.sum_congr rfl fun c _ => ?_)
  rw [e1 c, e2 c, mean_ref]

/-- A ROI's index with the class coordinate put back. -/
theorem lift_class (h : S8192x81.Reduces [1] S8192) (n : Fin 8192) (k : Fin 81) : h.lift (ix1 n) k = ix2 n k := by
  funext a
  apply Fin.ext
  show h.liftVal (ix1 n) k.val a = (ix2 n k a).val
  unfold Shape.Reduces.liftVal
  match a with
  | ⟨0, _⟩ => rfl
  | ⟨1, _⟩ => rfl

/-- The reference's row maximum is the largest logit. -/
theorem rowmax_ref (X : (⟨S8192x7x7x256, .f32⟩ : BufTy).Contents (Elt Ideal)) (Wl : (⟨S256x81, .f32⟩ : BufTy).Contents (Elt Ideal))
    (bl : (⟨S81, .f32⟩ : BufTy).Contents (Elt Ideal)) (n : Fin 8192) :
    val_main_v9 (F := Ideal) X Wl bl (ix1 n) = colMax (fun k : Fin 81 => dense X Wl bl n k) := by
  have hR : S8192x81.Reduces [1] S8192 := by decide
  rw [val_main_v9_apply, val_main_v8_apply, val_main_cst_2_apply]
  unfold val_main_v7
  rw [Host.reduce_eq_fold_single FloatOps.maximumf _ _ reducesTo_S8192x81_S8192_d1 hR h_S_ (ix1 n), val_main_cst_1_apply]
  show max (Ideal.ofBits .f32 0xFF800000#32)
    ((Finset.univ : Finset (Fin 81)).fold max (Ideal.ofBits .f32 0xFF800000#32) (val_main_v6 (F := Ideal) X Wl bl ∘ hR.lift (ix1 n))) = _
  rw [ofBits_neg_inf]
  refine (max_bot_colMax _).trans ?_
  unfold colMax
  have hk : ∀ k : Fin 81, (val_main_v6 (F := Ideal) X Wl bl ∘ hR.lift (ix1 n)) k = dense X Wl bl n k := fun k => by
    show val_main_v6 (F := Ideal) X Wl bl (hR.lift (ix1 n) k) = _
    rw [lift_class hR n k, logits_ref]
  exact congrArg (Finset.univ.fold max ⊥) (funext hk)

/-- The reference's exponentials. -/
theorem exp_ref (X : (⟨S8192x7x7x256, .f32⟩ : BufTy).Contents (Elt Ideal)) (Wl : (⟨S256x81, .f32⟩ : BufTy).Contents (Elt Ideal))
    (bl : (⟨S81, .f32⟩ : BufTy).Contents (Elt Ideal)) (n : Fin 8192) (k : Fin 81) :
    val_main_v13 (F := Ideal) X Wl bl (ix2 n k)
      = Ideal.exp (dense X Wl bl n k - colMax (fun j : Fin 81 => dense X Wl bl n j)) := by
  have e1 : idx_main_v10 (idx_main_v11 (ix2 n k)) = ix1 n :=
    funext fun a => Fin.ext (by match a with | ⟨0, _⟩ => rfl)
  rw [val_main_v13_apply, val_main_v12_apply, val_main_v11_apply, val_main_v10_apply, e1, rowmax_ref, logits_ref]
  rfl

/-- The reference's probabilities are the softmax of the logits. -/
theorem probs_ref (X : (⟨S8192x7x7x256, .f32⟩ : BufTy).Contents (Elt Ideal)) (Wl : (⟨S256x81, .f32⟩ : BufTy).Contents (Elt Ideal))
    (bl : (⟨S81, .f32⟩ : BufTy).Contents (Elt Ideal)) (n : Fin 8192) (k : Fin 81) :
    val_main_v17 (F := Ideal) X Wl bl (ix2 n k) = softmax (fun j : Fin 81 => dense X Wl bl n j) k := by
  have e1 : idx_main_v15 (idx_main_v16 (ix2 n k)) = ix1 n :=
    funext fun a => Fin.ext (by match a with | ⟨0, _⟩ => rfl)
  have e2 : ∀ j : Fin 81, idx_main_v14 (ix1 n) j = ix2 n j := fun j =>
    funext fun a => Fin.ext (by match a with | ⟨0, _⟩ => rfl | ⟨1, _⟩ => rfl)
  rw [val_main_v17_apply, val_main_v16_apply, val_main_v15_apply, e1, val_main_v14_apply, val_main_cst_3_apply, exp_ref]
  show Ideal.div _ (Ideal.ofBits .f32 0x00000000#32 + _) = _
  rw [Ideal.ofBits_zero_f32, zero_add]
  unfold softmax
  refine congrArg (Ideal.div _) (Finset.sum_congr rfl fun j _ => ?_)
  rw [e2 j, exp_ref]

/-- The three result arrays of the reference are the specification's. -/
theorem logits_eq (X : (⟨S8192x7x7x256, .f32⟩ : BufTy).Contents (Elt Ideal)) (Wl : (⟨S256x81, .f32⟩ : BufTy).Contents (Elt Ideal))
    (bl : (⟨S81, .f32⟩ : BufTy).Contents (Elt Ideal)) : val_main_v6 (F := Ideal) X Wl bl = logits X Wl bl :=
  funext fun i => by rw [eq_ix2 i]; exact logits_ref X Wl bl _ _

theorem probs_eq (X : (⟨S8192x7x7x256, .f32⟩ : BufTy).Contents (Elt Ideal)) (Wl : (⟨S256x81, .f32⟩ : BufTy).Contents (Elt Ideal))
    (bl : (⟨S81, .f32⟩ : BufTy).Contents (Elt Ideal)) : val_main_v17 (F := Ideal) X Wl bl = probs X Wl bl :=
  funext fun i => by rw [eq_ix2 i]; exact probs_ref X Wl bl _ _

theorem deltas_eq (X : (⟨S8192x7x7x256, .f32⟩ : BufTy).Contents (Elt Ideal)) (Wd : (⟨S256x4, .f32⟩ : BufTy).Contents (Elt Ideal))
    (bd : (⟨S4, .f32⟩ : BufTy).Contents (Elt Ideal)) : val_main_v21 (F := Ideal) X Wd bd = deltas X Wd bd :=
  funext fun i => by rw [eq_ix2 i]; exact deltas_ref X Wd bd _ _

end Cert.ReferenceIdeal.RefValue

end
-- ==== Proof.lean ====
/-
  The certificate of the box head: a TPU kernel that pools each ROI's 7 × 7 window, applies the class and box
  dense layers and a softmax, against its reference.
  The kernel adds the 49 window positions by a pairing tree and multiplies by the constant named 1/49, works on
  transposed (classes-major) blocks of 256 ROIs, and the host transposes the results back; the reference sums the
  window in one reduction, divides by 49 and multiplies ROI-major. On the extended reals addition is associative and
  commutative, division by 49 is the product with 1/49, and a product may be taken in either order: both programs
  compute `logits`, `probs` and `deltas` of Proof/Spec.lean, at every input. The three frames are the generated
  ones (the reference's is its generated run with the results dropped); the one rewrite of the idealization is the
  named constant, whose table value is 1/49.
-/
import proofs.«179187_g2559800508426_cont_9to1_580_17_alg».proof.Defs
import proofs.«179187_g2559800508426_cont_9to1_580_17_alg».proof.Proof.Gen.Kernel
import proofs.«179187_g2559800508426_cont_9to1_580_17_alg».proof.Proof.Gen.Kernel.Skeleton
import proofs.«179187_g2559800508426_cont_9to1_580_17_alg».proof.Proof.Gen.Kernel.Launch
import proofs.«179187_g2559800508426_cont_9to1_580_17_alg».proof.Proof.Gen.Kernel.Points
import proofs.«179187_g2559800508426_cont_9to1_580_17_alg».proof.Proof.Gen.Kernel.Frame
import proofs.«179187_g2559800508426_cont_9to1_580_17_alg».proof.Proof.Gen.KernelIdeal
import proofs.«179187_g2559800508426_cont_9to1_580_17_alg».proof.Proof.Gen.KernelIdeal.Skeleton
import proofs.«179187_g2559800508426_cont_9to1_580_17_alg».proof.Proof.Gen.KernelIdeal.Launch
import proofs.«179187_g2559800508426_cont_9to1_580_17_alg».proof.Proof.Gen.KernelIdeal.Points
import proofs.«179187_g2559800508426_cont_9to1_580_17_alg».proof.Proof.Gen.KernelIdeal.Frame
import proofs.«179187_g2559800508426_cont_9to1_580_17_alg».proof.Proof.Gen.ReferenceIdeal
import proofs.«179187_g2559800508426_cont_9to1_580_17_alg».proof.Proof.Gen.Pre_finite_inputs
import proofs.«179187_g2559800508426_cont_9to1_580_17_alg».proof.Proof.Gen.ReferenceIdeal.Run
import proofs.«179187_g2559800508426_cont_9to1_580_17_alg».proof.Proof.Gen.ReferenceIdeal.Read
import proofs.«179187_g2559800508426_cont_9to1_580_17_alg».proof.Proof.KernelValue
import proofs.«179187_g2559800508426_cont_9to1_580_17_alg».proof.Proof.RefValue
import Idealize.ShloMosaic.Adequacy
import Idealize.ShloMosaic.Init

noncomputable section

namespace Cert.Proof

open Idealize.ShloMosaic Idealize.ShloMosaic.TcCoe Idealize.SL.Sem Cert.RoiHead

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization's one rewrite: the kernel's scale constant is named, and the table gives the name 1/49. -/
theorem preserves : Cert.preserves_Kernel_KernelIdeal :=
  IdealRules.named_const.statement Cert.KernelIdeal.κ "inv_49" .f32 0x3CA72F05#32 ((1 / 49 : ℝ) : EReal) rfl

/-- Both idealized programs end with `logits`, `probs` and `deltas` of arguments that agree. -/
theorem algebraic : Cert.algebraic_KernelIdeal_ReferenceIdeal := by
  intro m ρ m' ρ' _ hagree
  refine ⟨fun c => logits (Cert.KernelIdeal.KValue.argX m c) (Cert.KernelIdeal.KValue.argWl m c) (Cert.KernelIdeal.KValue.argBl m c),
    fun c => probs (Cert.KernelIdeal.KValue.argX m c) (Cert.KernelIdeal.KValue.argWl m c) (Cert.KernelIdeal.KValue.argBl m c),
    fun c => deltas (Cert.KernelIdeal.KValue.argX m c) (Cert.KernelIdeal.KValue.argWd m c) (Cert.KernelIdeal.KValue.argBd m c),
    Cert.KernelIdeal.KValue.run m ρ, ?_⟩
  refine (θ_run Cert.ReferenceIdeal.defs _ _).mono (fun _ h c => ?_) (Cert.ReferenceIdeal.Value.run (F := Ideal) m' ρ')
  obtain ⟨h6, h17, h21, hargs⟩ := h c
  obtain ⟨a0, a1, a2, a3, a4⟩ := hagree c
  refine ⟨h6.trans ?_, h17.trans ?_, h21.trans ?_, hargs⟩
  · rw [Cert.ReferenceIdeal.Read.val_main_v6_eq, Cert.ReferenceIdeal.RefValue.logits_eq, a0, a1, a2]
  · rw [Cert.ReferenceIdeal.Read.val_main_v17_eq, Cert.ReferenceIdeal.RefValue.probs_eq, a0, a1, a2]
  · rw [Cert.ReferenceIdeal.Read.val_main_v21_eq, Cert.ReferenceIdeal.RefValue.deltas_eq, a0, a3, a4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
